-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x10 .f32) (main_arg15 : FVec F S10 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x10 .f32 := Host.absf main_arg14
  let main_cst_22 : FVec F S_ .f32 := constant S_ .f32 0x7F800000#32
  let main_v60 : FVec F S64x10 .f32 := broadcastInDim S64x10 ![] bcast_S_S64x10 main_cst_22
  let main_v61 : IVec S64x10 1 := cmpf .olt main_v59 main_v60
  let main_c_23 : IVec S_ 1 := constantI S_ 1 1#1
  let main_v62 : IVec S_ 1 := (fun x v => Host.reduce IntOp.andi x v reducesTo_S64x10_S_d0_1 h_S_) main_v61 main_c_23
  let main_v63 : IVec S_ 1 := andi main_v58 main_v62
  let main_v64 : FVec F S10 .f32 := Host.absf main_arg15
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg9 : FVec F S32 .f32) (main_arg10 : FVec F S32x64 .f32) (main_arg11 : FVec F S64 .f32) (main_arg12 : FVec F S64x64 .f32) (main_arg13 : FVec F S64 .f32) (main_arg14 : FVec F S64x10 .f32) (main_arg15 : FVec F S10 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x64 .f32 := Host.absf main_arg10
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_v48 main_v49 main_v50

def fn_part1 {F : FTy → Type} [FloatOps F] (main_arg6 : FVec F S32x32 .f32) (main_arg7 : FVec F S32 .f32) (main_arg8 : FVec F S32x32 .f32) (main_arg9 : FVec F S32 .f32) (main_arg10 : FVec F S32x64 .f32) (main_arg11 : FVec F S64 .f32) (main_arg12 : FVec F S64x64 .f32) (main_arg13 : FVec F S64 .f32) (main_arg14 : FVec F S64x10 .f32) (main_arg15 : FVec F S10 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg8
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : IVec S2x3200000 32) (main_arg2 : FVec F S3200000 .f32) (main_arg3 : IVec S100000 32) (main_arg4 : FVec F S128x32 .f32) (main_arg5 : FVec F S32 .f32) (main_arg6 : FVec F S32x32 .f32) (main_arg7 : FVec F S32 .f32) (main_arg8 : FVec F S32x32 .f32) (main_arg9 : FVec F S32 .f32) (main_arg10 : FVec F S32x64 .f32) (main_arg11 : FVec F S64 .f32) (main_arg12 : FVec F S64x64 .f32) (main_arg13 : FVec F S64 .f32) (main_arg14 : FVec F S64x10 .f32) (main_arg15 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x32 .f32 := Host.absf main_arg4
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x128 : Shape := ⟨2, ![10000, 128]⟩
abbrev S10000x32 : Shape := ⟨2, ![10000, 32]⟩
abbrev S3300000x32 : Shape := ⟨2, ![3300000, 32]⟩
abbrev S1x32 : Shape := ⟨2, ![1, 32]⟩
abbrev S64x32 : Shape := ⟨2, ![64, 32]⟩
abbrev S100000x1 : Shape := ⟨2, ![100000, 1]⟩
abbrev S64x1 : Shape := ⟨2, ![64, 1]⟩
abbrev S1x64 : Shape := ⟨2, ![1, 64]⟩
abbrev S1x10 : Shape := ⟨2, ![1, 10]⟩

abbrev nBuf : Space → Nat
  | .hbm => 144
  | .vmem => 23
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S100000, .i32⟩
  | 4 => ⟨S128x32, .f32⟩
  | 5 => ⟨S32, .f32⟩
  | 6 => ⟨S32x32, .f32⟩
  | 7 => ⟨S32, .f32⟩
  | 8 => ⟨S32x32, .f32⟩
  | 9 => ⟨S32, .f32⟩
  | 10 => ⟨S32x64, .f32⟩
  | 11 => ⟨S64, .f32⟩
  | 12 => ⟨S64x64, .f32⟩
  | 13 => ⟨S64, .f32⟩
  | 14 => ⟨S64x10, .f32⟩
  | 15 => ⟨S10, .f32⟩
  | 16 => ⟨S1x3200000, .i32⟩
  | 17 => ⟨S3200000, .i32⟩
  | 18 => ⟨S1x3200000, .i32⟩
  | 19 => ⟨S3200000, .i32⟩
  | 20 => ⟨S100000, .i32⟩
  | 21 => ⟨S3300000, .i32⟩
  | 22 => ⟨S3300000, .i32⟩
  | 23 => ⟨S_, .f32⟩
  | 24 => ⟨S100000, .f32⟩
  | 25 => ⟨S3300000, .f32⟩
  | 26 => ⟨S_, .f32⟩
  | 27 => ⟨S100000, .f32⟩
  | 28 => ⟨S3300000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000, .f32⟩
  | 57 => ⟨S3300000, .f32⟩
  | 58 => ⟨S100000x32, .f32⟩
  | 59 => ⟨S3300000x1, .f32⟩
  | 60 => ⟨S_, .i32⟩
  | 61 => ⟨S3300000, .i32⟩
  | 62 => ⟨S3300000, .i1⟩
  | 63 => ⟨S_, .i32⟩
  | 64 => ⟨S3300000, .i32⟩
  | 65 => ⟨S3300000, .i32⟩
  | 66 => ⟨S3300000, .i32⟩
  | 67 => ⟨S3300000x1, .i32⟩
  | 68 => ⟨S3300000x32, .f32⟩
  | 69 => ⟨S3300000x32, .f32⟩
  | 70 => ⟨S3300000x32, .f32⟩
  | 71 => ⟨S_, .f32⟩
  | 72 => ⟨S100000x32, .f32⟩
  | 73 => ⟨S3300000x1, .i32⟩
  | 74 => ⟨S100000x32, .f32⟩
  | 75 => ⟨S1x32, .f32⟩
  | 76 => ⟨S100000x32, .f32⟩
  | 77 => ⟨S100000x32, .f32⟩
  | 78 => ⟨S_, .f32⟩
  | 79 => ⟨S100000x32, .f32⟩
  | 80 => ⟨S100000x32, .f32⟩
  | 81 => ⟨S100000x32, .f32⟩
  | 82 => ⟨S3300000x1, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000x32, .f32⟩
  | 92 => ⟨S3300000x32, .f32⟩
  | 93 => ⟨S3300000x32, .f32⟩
  | 94 => ⟨S_, .f32⟩
  | 95 => ⟨S100000x32, .f32⟩
  | 96 => ⟨S3300000x1, .i32⟩
  | 97 => ⟨S100000x32, .f32⟩
  | 98 => ⟨S1x32, .f32⟩
  | 99 => ⟨S100000x32, .f32⟩
  | 100 => ⟨S100000x32, .f32⟩
  | 101 => ⟨S_, .f32⟩
  | 102 => ⟨S100000x32, .f32⟩
  | 103 => ⟨S100000x32, .f32⟩
  | 104 => ⟨S100000x32, .f32⟩
  | 105 => ⟨S3300000x1, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x32, .f32⟩
  | 115 => ⟨S3300000x32, .f32⟩
  | 116 => ⟨S3300000x32, .f32⟩
  | 117 => ⟨S_, .f32⟩
  | 118 => ⟨S100000x32, .f32⟩
  | 119 => ⟨S3300000x1, .i32⟩
  | 120 => ⟨S100000x32, .f32⟩
  | 121 => ⟨S1x32, .f32⟩
  | 122 => ⟨S100000x32, .f32⟩
  | 123 => ⟨S100000x32, .f32⟩
  | 124 => ⟨S_, .f32⟩
  | 125 => ⟨S64x32, .f32⟩
  | 126 => ⟨S100000x1, .i32⟩
  | 127 => ⟨S64x32, .f32⟩
  | _ => ⟨S100000x128, .f32⟩

abbrev hbmTy0_1 (i : Nat) : BufTy := match i % 128 with
  | 0 => ⟨S_, .f32⟩
  | 1 => ⟨S100000, .f32⟩
  | 2 => ⟨S_, .f32⟩
  | 3 => ⟨S64, .f32⟩
  | 4 => ⟨S100000x1, .i32⟩
  | 5 => ⟨S64, .f32⟩
  | 6 => ⟨S_, .f32⟩
  | 7 => ⟨S64, .f32⟩
  | 8 => ⟨S64, .f32⟩
  | 9 => ⟨S64x1, .f32⟩
  | 10 => ⟨S64x32, .f32⟩
  | 11 => ⟨S64x32, .f32⟩
  | 12 => ⟨S1x64, .f32⟩
  | 13 => ⟨S1x64, .f32⟩
  | 14 => ⟨S1x10, .f32⟩
  | 15 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S32x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x32, .f32⟩
  | .local _ .vmem, ⟨13, _⟩ => ⟨S10000x32, .f32⟩
  | .local _ .vmem, ⟨14, _⟩ => ⟨S10000x32, .f32⟩
  | .local _ .vmem, ⟨15, _⟩ => ⟨S64x32, .f32⟩
  | .local _ .vmem, ⟨16, _⟩ => ⟨S32x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S64x10, .f32⟩
  | .local _ .vmem, ⟨21, _⟩ => ⟨S1x10, .f32⟩
  | .local _ .vmem, ⟨22, _⟩ => ⟨S64x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_cst : Ref sig .tc := ⟨.hbm, 78, rfl⟩
abbrev main_call1_v0 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_9 : Ref sig .tc := ⟨.hbm, 83, rfl⟩
abbrev main_v52 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call2_cst : Ref sig .tc := ⟨.hbm, 101, rfl⟩
abbrev main_call2_v0 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_12 : Ref sig .tc := ⟨.hbm, 106, rfl⟩
abbrev main_v70 : Ref sig .tc := ⟨.hbm, 107, rfl⟩
abbrev main_v71 : Ref sig .tc := ⟨.hbm, 108, rfl⟩
abbrev main_c_13 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_14 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_15 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_16 : Ref sig .tc := ⟨.hbm, 128, rfl⟩
abbrev main_v88 : Ref sig .tc := ⟨.hbm, 129, rfl⟩
abbrev main_cst_17 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_18 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc3_stg6_0 : Ref sig .tc := ⟨.vmem, 21, rfl⟩
abbrev cc3_stg7_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20
abbrev cc3_sem6_0 : DmaSem sig := 21
abbrev cc3_sem7_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x32 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S32x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x10 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  shapeCasts_S64_S1x64 : S64.ShapeCasts S1x64
  shapeCasts_S10_S1x10 : S10.ShapeCasts S1x10
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x64_S64x64_0_0 : ∀ a, (![0, 0] : Fin 2 → Nat) a + S64x64.size a ≤ S64x64.size a
  h_S64x64 : 0 < S64x64.numel
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x32_S10000x32_1_0_0_1_n_n_wf : DotDims.WF S10000x32 S32x32 S10000x32 [1] [0] [0] [1] [] []
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x64_S64x64_1_0_0_1_n_n_wf : DotDims.WF S64x32 S32x64 S64x64 [1] [0] [0] [1] [] []
  dot_S64x64_S64x64_S64x64_1_0_0_1_n_n_wf : DotDims.WF S64x64 S64x64 S64x64 [1] [0] [0] [1] [] []
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x32.size a ≤ S64x32.size a
  hwx3_0 : ∀ i : grid3.Coords, EltTy.bits .f32 = 32 ∨ (Rect.block (s := S64x32) S64x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x64.size a ≤ S32x64.size a
  hwx3_1 : ∀ i : grid3.Coords, EltTy.bits .f32 = 32 ∨ (Rect.block (s := S32x64) S32x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x10.size a ≤ S64x10.size a
  hwx3_5 : ∀ i : grid3.Coords, EltTy.bits .f32 = 32 ∨ (Rect.block (s := S64x10) S64x10.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x10.size a ≤ S1x10.size a
  hwx3_6 : ∀ i : grid3.Coords, EltTy.bits .f32 = 32 ∨ (Rect.block (s := S1x10) S1x10.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x10.size a ≤ S64x10.size a
  hwx3_7 : ∀ i : grid3.Coords, EltTy.bits .f32 = 32 ∨ (Rect.block (s := S64x10) S64x10.size (cc3_transform_7 i) (hinb3_7 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x64_S64x64_1_0_0_1_n_n : DotDims S64x32 S32x64 S64x64 where
  lhsContracting := [1]
  rhsContracting := [0]
  lhsNonContracting := [0]
  rhsNonContracting := [1]
  lhsBatch := []
  rhsBatch := []
  wf := dot_S64x32_S32x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v96) S64x32.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S32x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v97) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v98) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S64x10.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v99) S1x10.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v100) S64x10.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x3200000 : Shape := ⟨2, ![1, 3200000]⟩
abbrev S100000x32 : Shape := ⟨2, ![100000, 32]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S64x32 : Shape := ⟨2, ![64, 32]⟩
abbrev S100000x1 : Shape := ⟨2, ![100000, 1]⟩
abbrev S64x1 : Shape := ⟨2, ![64, 1]⟩
abbrev S1x64 : Shape := ⟨2, ![1, 64]⟩
abbrev S1x10 : Shape := ⟨2, ![1, 10]⟩

abbrev nBuf : Space → Nat
  | .hbm => 234
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S100000, .i32⟩
  | 4 => ⟨S128x32, .f32⟩
  | 5 => ⟨S32, .f32⟩
  | 6 => ⟨S32x32, .f32⟩
  | 7 => ⟨S32, .f32⟩
  | 8 => ⟨S32x32, .f32⟩
  | 9 => ⟨S32, .f32⟩
  | 10 => ⟨S32x64, .f32⟩
  | 11 => ⟨S64, .f32⟩
  | 12 => ⟨S64x64, .f32⟩
  | 13 => ⟨S64, .f32⟩
  | 14 => ⟨S64x10, .f32⟩
  | 15 => ⟨S10, .f32⟩
  | 16 => ⟨S1x3200000, .i32⟩
  | 17 => ⟨S3200000, .i32⟩
  | 18 => ⟨S1x3200000, .i32⟩
  | 19 => ⟨S3200000, .i32⟩
  | 20 => ⟨S100000x32, .f32⟩
  | 21 => ⟨S100000, .i32⟩
  | 22 => ⟨S3300000, .i32⟩
  | 23 => ⟨S3300000, .i32⟩
  | 24 => ⟨S_, .f32⟩
  | 25 => ⟨S100000, .f32⟩
  | 26 => ⟨S3300000, .f32⟩
  | 27 => ⟨S_, .f32⟩
  | 28 => ⟨S100000, .f32⟩
  | 29 => ⟨S3300000x1, .i32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000, .f32⟩
  | 58 => ⟨S3300000, .f32⟩
  | 59 => ⟨S3300000x1, .f32⟩
  | 60 => ⟨S_, .i32⟩
  | 61 => ⟨S3300000, .i32⟩
  | 62 => ⟨S3300000, .i1⟩
  | 63 => ⟨S_, .i32⟩
  | 64 => ⟨S3300000, .i32⟩
  | 65 => ⟨S3300000, .i32⟩
  | 66 => ⟨S3300000, .i32⟩
  | 67 => ⟨S3300000x1, .i32⟩
  | 68 => ⟨S3300000x32, .f32⟩
  | 69 => ⟨S3300000x32, .f32⟩
  | 70 => ⟨S3300000x32, .f32⟩
  | 71 => ⟨S_, .f32⟩
  | 72 => ⟨S100000x32, .f32⟩
  | 73 => ⟨S3300000x1, .i32⟩
  | 74 => ⟨S100000x32, .f32⟩
  | 75 => ⟨S1x32, .f32⟩
  | 76 => ⟨S100000x32, .f32⟩
  | 77 => ⟨S100000x32, .f32⟩
  | 78 => ⟨S_, .f32⟩
  | 79 => ⟨S100000x32, .f32⟩
  | 80 => ⟨S100000x32, .f32⟩
  | 81 => ⟨S100000x32, .f32⟩
  | 82 => ⟨S100000, .i32⟩
  | 83 => ⟨S3300000, .i32⟩
  | 84 => ⟨S3300000, .i32⟩
  | 85 => ⟨S_, .f32⟩
  | 86 => ⟨S100000, .f32⟩
  | 87 => ⟨S3300000, .f32⟩
  | 88 => ⟨S_, .f32⟩
  | 89 => ⟨S100000, .f32⟩
  | 90 => ⟨S3300000x1, .i32⟩
  | 91 => ⟨S100000, .f32⟩
  | 92 => ⟨S_, .f32⟩
  | 93 => ⟨S100000, .f32⟩
  | 94 => ⟨S100000, .i1⟩
  | 95 => ⟨S100000, .f32⟩
  | 96 => ⟨S_, .f32⟩
  | 97 => ⟨S_, .f32⟩
  | 98 => ⟨S100000, .f32⟩
  | 99 => ⟨S100000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000, .f32⟩
  | 119 => ⟨S3300000, .f32⟩
  | 120 => ⟨S3300000x1, .f32⟩
  | 121 => ⟨S_, .i32⟩
  | 122 => ⟨S3300000, .i32⟩
  | 123 => ⟨S3300000, .i1⟩
  | 124 => ⟨S_, .i32⟩
  | 125 => ⟨S3300000, .i32⟩
  | 126 => ⟨S3300000, .i32⟩
  | 127 => ⟨S3300000, .i32⟩
  | _ => ⟨S100000x128, .f32⟩

abbrev hbmTy0_1 (i : Nat) : BufTy := match i % 128 with
  | 0 => ⟨S3300000x1, .i32⟩
  | 1 => ⟨S3300000x32, .f32⟩
  | 2 => ⟨S3300000x32, .f32⟩
  | 3 => ⟨S3300000x32, .f32⟩
  | 4 => ⟨S_, .f32⟩
  | 5 => ⟨S100000x32, .f32⟩
  | 6 => ⟨S3300000x1, .i32⟩
  | 7 => ⟨S100000x32, .f32⟩
  | 8 => ⟨S1x32, .f32⟩
  | 9 => ⟨S100000x32, .f32⟩
  | 10 => ⟨S100000x32, .f32⟩
  | 11 => ⟨S_, .f32⟩
  | 12 => ⟨S100000x32, .f32⟩
  | 13 => ⟨S100000x32, .f32⟩
  | 14 => ⟨S100000x32, .f32⟩
  | 15 => ⟨S100000, .i32⟩
  | 16 => ⟨S3300000, .i32⟩
  | 17 => ⟨S3300000, .i32⟩
  | 18 => ⟨S_, .f32⟩
  | 19 => ⟨S100000, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S3300000x1, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x32, .f32⟩
  | 63 => ⟨S3300000x32, .f32⟩
  | 64 => ⟨S3300000x32, .f32⟩
  | 65 => ⟨S_, .f32⟩
  | 66 => ⟨S100000x32, .f32⟩
  | 67 => ⟨S3300000x1, .i32⟩
  | 68 => ⟨S100000x32, .f32⟩
  | 69 => ⟨S1x32, .f32⟩
  | 70 => ⟨S100000x32, .f32⟩
  | 71 => ⟨S100000x32, .f32⟩
  | 72 => ⟨S_, .f32⟩
  | 73 => ⟨S64x32, .f32⟩
  | 74 => ⟨S100000x1, .i32⟩
  | 75 => ⟨S64x32, .f32⟩
  | 76 => ⟨S_, .f32⟩
  | 77 => ⟨S100000, .f32⟩
  | 78 => ⟨S_, .f32⟩
  | 79 => ⟨S64, .f32⟩
  | 80 => ⟨S100000x1, .i32⟩
  | 81 => ⟨S64, .f32⟩
  | 82 => ⟨S_, .f32⟩
  | 83 => ⟨S64, .f32⟩
  | 84 => ⟨S64, .f32⟩
  | 85 => ⟨S64x1, .f32⟩
  | 86 => ⟨S64x32, .f32⟩
  | 87 => ⟨S64x32, .f32⟩
  | 88 => ⟨S64x64, .f32⟩
  | 89 => ⟨S1x64, .f32⟩
  | 90 => ⟨S64x64, .f32⟩
  | 91 => ⟨S64x64, .f32⟩
  | 92 => ⟨S_, .f32⟩
  | 93 => ⟨S64x64, .f32⟩
  | 94 => ⟨S64x64, .f32⟩
  | 95 => ⟨S64x64, .f32⟩
  | 96 => ⟨S1x64, .f32⟩
  | 97 => ⟨S64x64, .f32⟩
  | 98 => ⟨S64x64, .f32⟩
  | 99 => ⟨S_, .f32⟩
  | 100 => ⟨S64x64, .f32⟩
  | 101 => ⟨S64x64, .f32⟩
  | 102 => ⟨S64x10, .f32⟩
  | 103 => ⟨S1x10, .f32⟩
  | 104 => ⟨S64x10, .f32⟩
  | 105 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_cst : Ref sig .tc := ⟨.hbm, 78, rfl⟩
abbrev main_call1_v0 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_call2_v0 : Ref sig .tc := ⟨.hbm, 97, rfl⟩
abbrev main_call2_v1 : Ref sig .tc := ⟨.hbm, 98, rfl⟩
abbrev main_v62 : Ref sig .tc := ⟨.hbm, 99, rfl⟩
abbrev main_c_13 : Ref sig .tc := ⟨.hbm, 100, rfl⟩
abbrev main_v63 : Ref sig .tc := ⟨.hbm, 101, rfl⟩
abbrev main_v64 : Ref sig .tc := ⟨.hbm, 102, rfl⟩
abbrev main_c_14 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_15 : Ref sig .tc := ⟨.hbm, 110, rfl⟩
abbrev main_v71 : Ref sig .tc := ⟨.hbm, 111, rfl⟩
abbrev main_v72 : Ref sig .tc := ⟨.hbm, 112, rfl⟩
abbrev main_c_16 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_17 : Ref sig .tc := ⟨.hbm, 121, rfl⟩
abbrev main_v80 : Ref sig .tc := ⟨.hbm, 122, rfl⟩
abbrev main_v81 : Ref sig .tc := ⟨.hbm, 123, rfl⟩
abbrev main_c_18 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_19 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_call3_cst : Ref sig .tc := ⟨.hbm, 139, rfl⟩
abbrev main_call3_v0 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_20 : Ref sig .tc := ⟨.hbm, 146, rfl⟩
abbrev main_v100 : Ref sig .tc := ⟨.hbm, 147, rfl⟩
abbrev main_v101 : Ref sig .tc := ⟨.hbm, 148, rfl⟩
abbrev main_cst_21 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_cst_22 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_23 : Ref sig .tc := ⟨.hbm, 157, rfl⟩
abbrev main_call4_v0 : Ref sig .tc := ⟨.hbm, 158, rfl⟩
abbrev main_call4_v1 : Ref sig .tc := ⟨.hbm, 159, rfl⟩
abbrev main_v108 : Ref sig .tc := ⟨.hbm, 160, rfl⟩
abbrev main_c_24 : Ref sig .tc := ⟨.hbm, 161, rfl⟩
abbrev main_v109 : Ref sig .tc := ⟨.hbm, 162, rfl⟩
abbrev main_v110 : Ref sig .tc := ⟨.hbm, 163, rfl⟩
abbrev main_c_25 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_c_26 : Ref sig .tc := ⟨.hbm, 171, rfl⟩
abbrev main_v117 : Ref sig .tc := ⟨.hbm, 172, rfl⟩
abbrev main_v118 : Ref sig .tc := ⟨.hbm, 173, rfl⟩
abbrev main_c_27 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_c_28 : Ref sig .tc := ⟨.hbm, 182, rfl⟩
abbrev main_v126 : Ref sig .tc := ⟨.hbm, 183, rfl⟩
abbrev main_v127 : Ref sig .tc := ⟨.hbm, 184, rfl⟩
abbrev main_c_29 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_cst_30 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_cst_31 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_cst_32 : Ref sig .tc := ⟨.hbm, 204, rfl⟩
abbrev main_v144 : Ref sig .tc := ⟨.hbm, 205, rfl⟩
abbrev main_cst_33 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_cst_34 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_call5_cst : Ref sig .tc := ⟨.hbm, 220, rfl⟩
abbrev main_call5_v0 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_call6_cst : Ref sig .tc := ⟨.hbm, 227, rfl⟩
abbrev main_call6_v0 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S100000x128_S128x32_S100000x32_1_0_0_1_n_n_wf : DotDims.WF S100000x128 S128x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x64_S64x64_1_0_0_1_n_n_wf : DotDims.WF S64x32 S32x64 S64x64 [1] [0] [0] [1] [] []
  dot_S64x64_S64x64_S64x64_1_0_0_1_n_n_wf : DotDims.WF S64x64 S64x64 S64x64 [1] [0] [0] [1] [] []
  dot_S64x64_S64x10_S64x10_1_0_0_1_n_n_wf : DotDims.WF S64x64 S64x10 S64x10 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x64_S64x64_1_0_0_1_n_n : DotDims S64x32 S32x64 S64x64 where
  lhsContracting := [1]
  rhsContracting := [0]
  lhsNonContracting := [0]
  rhsNonContracting := [1]
  lhsBatch := []
  rhsBatch := []
  wf := dot_S64x32_S32x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.KernelRun.lean ====
/-
  The idealized kernel's run with its result named.

  @main is twelve segments: stretches of host operations and four matrix-unit regions.  Every weakly fair execution
  terminates, nothing faults, and at the end every buffer that lives for the whole run holds what the fold of the
  segments leaves there: a host stretch applies its operations, a region replaces its output array by what its
  write-backs leave.  Read at the result buffer this names the network's output; read at an argument it gives the
  argument back.
-/
import proofs.«175702_j23957327577458_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last region's
    exit contents and every argument array as launched. -/
theorem run_value : θ_run defs (onTc (τ := τ) (main (F := F))) ⟨m, fun _ => 0, ρ⟩ (fun r => ∀ c : Dev nD,
      r.2.mem ((c.tc : Thread nD τ).loc main_v100) = W12 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v100 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.KRun

end
-- ==== Proof.Spec.lean ====
/-
  The function both programs compute, stage by stage, on the extended reals.

  A graph-convolution network of three layers over N = 100000 nodes and E = 3200000 weighted edges, then a mean over
  G = 64 groups of nodes, then a three-layer perceptron.  With self loops appended (r = rows ++ [0..N), c = cols ++ [0..N),
  w = weights ++ 1), deg = Σ_{e : c e = n} w e, dinv = deg^(-1/2) where deg > 0 and 0 elsewhere, and
  norm e = dinv (r e) · w e · dinv (c e), one layer sends the linear image h = X·W of the node features to
  n ↦ Σ_{e : c e = n} norm e · h (r e) + bias.  The first two layers end in max(·, 0).  The pooled value of a group is
  the sum of its nodes' rows divided by max(count, 1); the perceptron is x ↦ max(x·W + b, 0) twice and x·W + b once.

  The scatter / gather / select stages are the same operations in both programs, so they are kept as the operations
  themselves; only the matrix products are spelt out entry by entry, because one program computes them block by block
  on the matrix unit and the other in one contraction.
-/
import proofs.«175702_j23957327577458_1_alg».proof.KernelIdeal
import proofs.«175702_j23957327577458_1_alg».proof.Proof.Gen.KernelIdeal
import Idealize.ShloMosaic.PureOps.Ideal
import Idealize.ShloMosaic.Lib.ValueIdx

noncomputable section

namespace Cert.Spec

open Cert.KernelIdeal Cert.KernelIdeal.Gen Idealize.ShloMosaic Idealize.ShloMosaic.ValueIdx

variable {F : FTy → Type} [FloatOps F]

/-- Source node of every edge, the self loops appended: r = rows ++ [0..N). -/
def srcIdx (ei : (⟨S2x3200000, .i32⟩ : BufTy).Contents (Elt F)) : (⟨S3300000, .i32⟩ : BufTy).Contents (Elt F) :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- Target node of every edge, the self loops appended: c = cols ++ [0..N). -/
def dstIdx (ei : (⟨S2x3200000, .i32⟩ : BufTy).Contents (Elt F)) : (⟨S3300000, .i32⟩ : BufTy).Contents (Elt F) :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- Edge weights, weight one on every self loop. -/
def wFull (ew : (⟨S3200000, .f32⟩ : BufTy).Contents (Elt F)) : (⟨S3300000, .f32⟩ : BufTy).Contents (Elt F) :=
  concatenate S3300000 0 [⟨S3200000, ew⟩, ⟨S100000, (broadcastInDim S100000 ![] bcast_S_S100000 (constant S_ .f32 0x3F800000#32))⟩] concatenates_S3200000_S100000_S3300000_d0

/-- Weighted in-degree of every node: deg n = Σ_{e : c e = n} w e. -/
def deg (ei : (⟨S2x3200000, .i32⟩ : BufTy).Contents (Elt F)) (ew : (⟨S3200000, .f32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 (dstIdx ei)) (wFull ew)

/-- deg^(-1/2) where the degree is positive, zero elsewhere. -/
def dinv (ei : (⟨S2x3200000, .i32⟩ : BufTy).Contents (Elt F)) (ew : (⟨S3200000, .f32⟩ : BufTy).Contents (Elt F)) : (⟨S100000, .f32⟩ : BufTy).Contents (Elt F) :=
  select (cmpf .ogt (deg ei ew) (broadcastInDim S100000 ![] bcast_S_S100000 (constant S_ .f32 0x00000000#32))) (Host.rsqrt (deg ei ew)) (broadcastInDim S100000 ![] bcast_S_S100000 (id (constant S_ .f32 0x00000000#32)))

/-- A node index counted from the end when negative (the index convention of a gather). -/
def wrap (ix : (⟨S3300000, .i32⟩ : BufTy).Contents (Elt F)) : (⟨S3300000, .i32⟩ : BufTy).Contents (Elt F) :=
  select (cmpi .slt ix (broadcastInDim S3300000 ![] bcast_S_S3300000 (constantI S_ 32 0#32))) (addi ix (broadcastInDim S3300000 ![] bcast_S_S3300000 (constantI S_ 32 100000#32))) ix

/-- The symmetric normalisation of every edge: norm e = dinv (r e) · w e · dinv (c e). -/
def norm (ei : (⟨S2x3200000, .i32⟩ : BufTy).Contents (Elt F)) (ew : (⟨S3200000, .f32⟩ : BufTy).Contents (Elt F)) : (⟨S3300000, .f32⟩ : BufTy).Contents (Elt F) :=
  mulf (mulf (Host.gather gather_S100000_S3300000x1_S3300000_n_0_n_n_0_1_1 (dinv ei ew) (broadcastInDim S3300000x1 ![0] bcast_S3300000_S3300000x1_0 (wrap (srcIdx ei)))) (wFull ew)) (Host.gather gather_S100000_S3300000x1_S3300000_n_0_n_n_0_1_1 (dinv ei ew) (broadcastInDim S3300000x1 ![0] bcast_S3300000_S3300000x1_0 (wrap (dstIdx ei))))

/-- One aggregation: n ↦ Σ_{e : c e = n} norm e · h (r e) + bias, from the linear image h of the node features. -/
def layer (h : (⟨S100000x32, .f32⟩ : BufTy).Contents (Elt F)) (ei : (⟨S2x3200000, .i32⟩ : BufTy).Contents (Elt F)) (ew : (⟨S3200000, .f32⟩ : BufTy).Contents (Elt F)) (b : (⟨S32, .f32⟩ : BufTy).Contents (Elt F)) : (⟨S100000x32, .f32⟩ : BufTy).Contents (Elt F) :=
  addf (Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 (dstIdx ei)) (mulf (broadcastInDim S3300000x32 ![0, 1] bcast_S3300000x1_S3300000x32_0_1 (broadcastInDim S3300000x1 ![0] bcast_S3300000_S3300000x1_0 (norm ei ew))) (Host.gather gather_S100000x32_S3300000x1_S3300000x32_1_0_n_n_0_1_132 h (broadcastInDim S3300000x1 ![0] bcast_S3300000_S3300000x1_0 (wrap (srcIdx ei)))))) (broadcastInDim S100000x32 ![0, 1] bcast_S1x32_S100000x32_0_1 (broadcastInDim S1x32 ![1] bcast_S32_S1x32_1 b))

/-- max(·, 0) on the node features. -/
def relu (h : (⟨S100000x32, .f32⟩ : BufTy).Contents (Elt F)) : (⟨S100000x32, .f32⟩ : BufTy).Contents (Elt F) :=
  maximumf h (broadcastInDim S100000x32 ![] bcast_S_S100000x32 (constant S_ .f32 0x00000000#32))

/-- The mean of the node rows of every group: the rows' sum divided by max(count, 1). -/
def pool (h : (⟨S100000x32, .f32⟩ : BufTy).Contents (Elt F)) (batch : (⟨S100000, .i32⟩ : BufTy).Contents (Elt F)) : (⟨S64x32, .f32⟩ : BufTy).Contents (Elt F) :=
  Host.divf (Host.scatterAdd scatter_S64x32_S100000x1_S100000x32_1_0_0_1 (broadcastInDim S64x32 ![] bcast_S_S64x32 (constant S_ .f32 0x00000000#32)) (broadcastInDim S100000x1 ![0] bcast_S100000_S100000x1_0 batch) h) (broadcastInDim S64x32 ![0, 1] bcast_S64x1_S64x32_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 batch) (broadcastInDim S100000 ![] bcast_S_S100000 (constant S_ .f32 0x3F800000#32))) (broadcastInDim S64 ![] bcast_S_S64 (constant S_ .f32 0x3F800000#32)))))

/-- The matrix product [a, K] · [K, b] entry by entry: (X · W)[p, q] = Σ_k X[p, k] · W[k, q]. -/
def mm {a K b : ℕ} (X : (⟨2, ![a, K]⟩ : Shape).Idx → EReal) (W : (⟨2, ![K, b]⟩ : Shape).Idx → EReal) :
    (⟨2, ![a, b]⟩ : Shape).Idx → EReal :=
  fun i => ∑ k : Fin K, X (ix2 (i 0) k) * W (ix2 k (i 1))

/-- x ↦ x · W + β entry by entry, the row β given as a [1, b] array. -/
def affine {a K b : ℕ} (X : (⟨2, ![a, K]⟩ : Shape).Idx → EReal) (W : (⟨2, ![K, b]⟩ : Shape).Idx → EReal)
    (β : (⟨2, ![1, b]⟩ : Shape).Idx → EReal) : (⟨2, ![a, b]⟩ : Shape).Idx → EReal :=
  fun i => mm X W i + β (ix2 0 (i 1))

/-- The perceptron on the pooled features: max(·,0) ∘ affine twice, then affine. -/
def mlp (g : S64x32.Idx → EReal) (W0 : S32x64.Idx → EReal) (β0 : S1x64.Idx → EReal) (W1 : S64x64.Idx → EReal)
    (β1 : S1x64.Idx → EReal) (W2 : S64x10.Idx → EReal) (β2 : S1x10.Idx → EReal) : S64x10.Idx → EReal :=
  affine (fun i => max (affine (fun j => max (affine g W0 β0 j) 0) W1 β1 i) 0) W2 β2

/-- A vector as a one-row matrix. -/
def row {b : ℕ} (v : (⟨1, ![b]⟩ : Shape).Idx → EReal) : (⟨2, ![1, b]⟩ : Shape).Idx → EReal := fun i => v (ix1 (i 1))

/-- The whole network at the extended reals. -/
def net (x : S100000x128.Idx → EReal) (ei : (⟨S2x3200000, .i32⟩ : BufTy).Contents (Elt Ideal)) (ew : S3200000.Idx → EReal)
    (batch : (⟨S100000, .i32⟩ : BufTy).Contents (Elt Ideal))
    (W1 : S128x32.Idx → EReal) (b1 : S32.Idx → EReal) (W2 : S32x32.Idx → EReal) (b2 : S32.Idx → EReal)
    (W3 : S32x32.Idx → EReal) (b3 : S32.Idx → EReal) (Wm0 : S32x64.Idx → EReal) (bm0 : S64.Idx → EReal)
    (Wm1 : S64x64.Idx → EReal) (bm1 : S64.Idx → EReal) (Wout : S64x10.Idx → EReal) (bout : S10.Idx → EReal) :
    S64x10.Idx → EReal :=
  mlp (pool (F := Ideal) (layer (F := Ideal) (mm (relu (F := Ideal) (layer (F := Ideal) (mm (relu (F := Ideal) (layer (F := Ideal) (mm x W1) ei ew b1)) W2) ei ew b2)) W3) ei ew b3) batch)
    Wm0 (row bm0) Wm1 (row bm1) Wout (row bout)

end Cert.Spec

end
-- ==== Proof.LibPlainDot.lean ====
/-
  The plain matrix product `[a, K] · [K, b]` (left operand contracted on its last axis, right operand on its first, no
  batch axes) read at an entry on the extended reals: `(x · y)[p, c] = Σₖ x[p, k] · y[k, c]`, the sum over `Fin K`.
  Stated once for any dimension record of that form, then for the two operations that compute it: a kernel's matrix
  unit product into a zero accumulator, and the host's `dot_general`.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product: contract the left operand's axis 1 with the right operand's axis 0, keep
    the left operand's axis 0 and the right operand's axis 1, no batch axes. -/
structure IsPlain {a K b : ℕ} (D : DotDims ⟨2, ![a, K]⟩ ⟨2, ![K, b]⟩ ⟨2, ![a, b]⟩) : Prop where
  lc : D.lhsContracting = [1]
  rc : D.rhsContracting = [0]
  ln : D.lhsNonContracting = [0]
  rn : D.rhsNonContracting = [1]
  lb : D.lhsBatch = []
  rb : D.rhsBatch = []

/-- The record of a plain product, its lists spelt out. -/
abbrev mk {a K b : ℕ} (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ := ⟨[1], [0], [0], [1], [], [], wf⟩

section
variable {a K b : ℕ} (wf : DotDims.WF ⟨2, ![a, K]⟩ ⟨2, ![K, b]⟩ ⟨2, ![a, b]⟩ [1] [0] [0] [1] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the contraction coordinate. -/
theorem rhs_row (i : (⟨2, ![a, b]⟩ : Shape).Idx) (q : (mk wf).contr.Idx) :
    ((mk wf).rhsIdx i q 0).val = (q ⟨0, Nat.one_pos⟩).val :=
  (mk wf).rhsIdx_val_of_single rfl i q

/-- The right operand's column is the entry's column. -/
theorem rhs_col (i : (⟨2, ![a, b]⟩ : Shape).Idx) (q : (mk wf).contr.Idx) : ((mk wf).rhsIdx i q 1).val = (i 1).val := by
  unfold DotDims.rhsIdx
  rw [dif_neg (show ¬(1 : Fin (Shape.rank ⟨2, ![K, b]⟩)) ∈ (mk wf).rhsBatch from fun h => nomatch h),
    dif_pos (show (1 : Fin (Shape.rank ⟨2, ![K, b]⟩)) ∈ (mk wf).rhsNonContracting from List.Mem.head _)]
  rfl

/-- The contraction at `(p, c)`, for the spelt-out record. -/
theorem sum_mk (x : (⟨2, ![a, K]⟩ : Shape).Idx → EReal) (y : (⟨2, ![K, b]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 k c) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 k c := funext fun ax => Fin.ext (by
    match ax with
    | ⟨0, _⟩ => exact (rhs_row wf _ _).trans hk
    | ⟨1, _⟩ => exact rhs_col wf _ _)
  rw [el, er]

end

/-- The contraction of a plain product at the entry `(p, c)` is the sum over the shared axis's coordinate. -/
theorem sum_plain {a K b : ℕ} (D : DotDims ⟨2, ![a, K]⟩ ⟨2, ![K, b]⟩ ⟨2, ![a, b]⟩) (h : IsPlain D)
    (x : (⟨2, ![a, K]⟩ : Shape).Idx → EReal) (y : (⟨2, ![K, b]⟩ : Shape).Idx → EReal) (p : Fin a) (c : Fin b) :
    ∑ k : D.contr.Idx, x (D.lhsIdx (ix2 p c) k) * y (D.rhsIdx (ix2 p c) k) = ∑ k : Fin K, x (ix2 p k) * y (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- A kernel's matrix product into the zero accumulator, at an entry. -/
theorem matmul_zero_apply {a K b : ℕ} {φ₁ φ₂ : FTy} (D : DotDims ⟨2, ![a, K]⟩ ⟨2, ![K, b]⟩ ⟨2, ![a, b]⟩) (h : IsPlain D)
    (prec : Option ContractPrecision) (x : FVec Ideal ⟨2, ![a, K]⟩ φ₁) (y : FVec Ideal ⟨2, ![K, b]⟩ φ₂) (p : Fin a) (c : Fin b) :
    FloatOps.matmul D prec x y (constant ⟨2, ![a, b]⟩ .f32 0x00000000#32) (ix2 p c) = ∑ k : Fin K, x (ix2 p k) * y (ix2 k c) :=
  (Ideal.matmul_constant_zero_apply D prec x y (ix2 p c)).trans (sum_plain D h x y p c)

/-- The host's `dot_general`, at an entry, whatever its schedule key. -/
theorem dotGeneral_apply {a K b : ℕ} {φ₁ φ₂ : FTy} (D : DotDims ⟨2, ![a, K]⟩ ⟨2, ![K, b]⟩ ⟨2, ![a, b]⟩) (h : IsPlain D)
    (prec : Option ContractPrecision) (sched : HostSchedule) (x : FVec Ideal ⟨2, ![a, K]⟩ φ₁) (y : FVec Ideal ⟨2, ![K, b]⟩ φ₂)
    (p : Fin a) (c : Fin b) :
    FloatOps.dotGeneral D prec sched x y (ix2 p c) = ∑ k : Fin K, x (ix2 p k) * y (ix2 k c) :=
  (Ideal.dotGeneral_apply D prec sched x y (ix2 p c)).trans (sum_plain D h x y p c)

end Cert.LibPlainDot

end
-- ==== Proof.MatmulRegions.lean ====
/-
  The three node-feature products of the network, as the block-by-block program leaves them.

  Each of the three regions computes a product X · W with X of 100000 rows and W a small square-ish matrix that is
  staged whole.  Its grid has ten points; at point t the left window's block is rows 10000·t … 10000·t + 9999 of X
  (all columns), the right window's block is all of W, and the body stores into the output window's block the
  product of the two blocks (both operands first narrowed to a 16-bit format, which is the identity on the extended
  reals) accumulated onto zero.  Row p of that block is therefore row 10000·t + p of X · W: a block of rows of a
  product is the product of that block of rows.  The ten output blocks are rows 10000·t … 10000·t + 9999 of the
  result array, t = 0 … 9, so together they cover it (row r lies in the block of point r / 10000), and the array
  after the region is X · W entry by entry.
-/
import proofs.«175702_j23957327577458_1_alg».proof.Proof.Gen.KernelIdeal.Frame
import proofs.«175702_j23957327577458_1_alg».proof.Proof.Spec
import proofs.«175702_j23957327577458_1_alg».proof.Proof.LibPlainDot
import Idealize.ShloMosaic.Lib.Pipeline.Value
import Idealize.ShloMosaic.Lib.ValueIdx

noncomputable section

namespace Cert.KernelIdeal.Regions

open Idealize.ShloMosaic Idealize.ShloMosaic.TcCoe Idealize.SL.Sem Idealize.ShloMosaic.ValueIdx
open Idealize.ShloMosaic.Pipeline (Dat)
open Cert.KernelIdeal Cert.KernelIdeal.Gen

/-- The zero offsets of a whole-buffer access, however they are spelt. -/
theorem zero_offsets : (![0, 0] : Fin 2 → Nat) = fun _ => 0 := funext fun a => by fin_cases a <;> rfl

/-! ## A block of rows of a product -/

/-- Let `out` send a [10000, K] block and a [K, 32] matrix to their product entry by entry.  If the block `x0` is rows
    10000·n … 10000·n + 9999 of `X` and `x1` is `W`, then entry `j` of `out x0 x1` is entry `i` of `X · W`, where `i` is
    `j` moved down by 10000·n rows: only row 10000·n + j₀ of `X` and column j₁ of `W` enter. -/
theorem rows_of_product {K : ℕ}
    (out : ((⟨2, ![10000, K]⟩ : Shape).Idx → EReal) → ((⟨2, ![K, 32]⟩ : Shape).Idx → EReal) → (⟨2, ![10000, 32]⟩ : Shape).Idx → EReal)
    (hout : ∀ x0 x1 (p : Fin 10000) (q : Fin 32), out x0 x1 (ix2 p q) = ∑ k : Fin K, x0 (ix2 p k) * x1 (ix2 k q))
    (x0 : (⟨2, ![10000, K]⟩ : Shape).Idx → EReal) (x1 : (⟨2, ![K, 32]⟩ : Shape).Idx → EReal)
    (X : (⟨2, ![100000, K]⟩ : Shape).Idx → EReal) (W : (⟨2, ![K, 32]⟩ : Shape).Idx → EReal) (n : ℕ)
    (h0 : ∀ (p : Fin 10000) (k : Fin K) (i : (⟨2, ![100000, K]⟩ : Shape).Idx),
      (i 0).val = n * 10000 + p.val → (i 1).val = k.val → x0 (ix2 p k) = X i)
    (h1 : ∀ (k : Fin K) (q : Fin 32), x1 (ix2 k q) = W (ix2 k q))
    (j : (⟨2, ![10000, 32]⟩ : Shape).Idx) (i : (⟨2, ![100000, 32]⟩ : Shape).Idx)
    (hi0 : (i 0).val = n * 10000 + (j 0).val) (hi1 : (i 1).val = (j 1).val) :
    out x0 x1 j = Cert.Spec.mm (a := 100000) (K := K) (b := 32) X W i := by
  obtain ⟨p, q, rfl⟩ : ∃ (p : Fin 10000) (q : Fin 32), j = ix2 p q := ⟨j 0, j 1, eq_ix2 j⟩
  rw [hout]
  show _ = ∑ k : Fin K, X (ix2 (i 0) k) * W (ix2 k (i 1))
  refine Finset.sum_congr rfl fun k _ => ?_
  rw [h0 p k (ix2 (i 0) k) hi0 rfl, h1 k q, show q = i 1 from Fin.ext hi1.symm]

variable (V : (c : Dev nD) → (b : Ref sig .tc) → Buf (Elt Ideal) ((c : Thread nD τ).loc b))

/-! ## Region 0: the node features times the first layer's weights -/

/-- What the body leaves in the output window's buffer, at an entry: the product of the two loaded blocks.  The one
    store covers the buffer, the loads read the whole staging buffers, narrowing to 16 bits changes nothing on the
    extended reals, and the accumulator starts at zero. -/
theorem out0_2_apply (x0 : Vec Ideal S10000x128 .f32) (x1 : Vec Ideal S128x32 .f32) (p : Fin 10000) (q : Fin 32) :
    out0_2 x0 x1 (ix2 p q) = ∑ k : Fin 128, x0 (ix2 p k) * x1 (ix2 k q) := by
  unfold out0_2
  rw [View.canon_unit_zero zero_offsets]
  simp only [View.ld_unit_zero (S := S10000x128) zero_offsets, View.ld_unit_zero (S := S128x32) zero_offsets]
  unfold k0_pay1
  exact Cert.LibPlainDot.matmul_zero_apply dot_S10000x128_S128x32_S10000x32_1_0_0_1_n_n ⟨rfl, rfl, rfl, rfl, rfl, rfl⟩ none x0 x1 p q

/-- The block indices over the grid: the left and the output window move down one block of rows per point, the
    right window stays on its only block. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows 10000·t … 10000·t + 9999 of the left operand. -/
theorem left_block0 (c : Dev nD) (t : Fin cfg0.N) (p : Fin 10000) (k : Fin 128) (i : S100000x128.Idx)
    (hi0 : (i 0).val = t.val * 10000 + p.val) (hi1 : (i 1).val = k.val) :
    (iblk0 V c 0 t : Vec Ideal S10000x128 .f32) (ix2 p k) = (V c main_arg0 : S100000x128.Idx → EReal) i := by
  obtain ⟨e0, e1, -, -, -, -⟩ := block_index0 t
  unfold iblk0
  rw [View.read_apply]
  show V c main_arg0 _ = V c main_arg0 _
  congr 1
  funext a
  apply Fin.ext
  match a with
  | ⟨0, _⟩ => show win0_0.index t 0 * 10000 + 1 * p.val = (i 0).val; rw [e0, hi0]; omega
  | ⟨1, _⟩ => show win0_0.index t 1 * 128 + 1 * k.val = (i 1).val; rw [e1, hi1]; omega

/-- The right window's block at every point is the whole right operand. -/
theorem right_block0 (c : Dev nD) (t : Fin cfg0.N) (k : Fin 128) (q : Fin 32) :
    (iblk0 V c 1 t : Vec Ideal S128x32 .f32) (ix2 k q) = (V c main_arg4 : S128x32.Idx → EReal) (ix2 k q) := by
  obtain ⟨-, -, e2, e3, -, -⟩ := block_index0 t
  unfold iblk0
  rw [View.read_apply]
  show V c main_arg4 _ = V c main_arg4 _
  congr 1
  funext a
  apply Fin.ext
  match a with
  | ⟨0, _⟩ => show win0_1.index t 0 * 128 + 1 * k.val = k.val; rw [e2]; omega
  | ⟨1, _⟩ => show win0_1.index t 1 * 32 + 1 * q.val = q.val; rw [e3]; omega

/-- What point `t` writes back is block `t` of the product of the two operands as the region finds them. -/
theorem written_back0 (c : Dev nD) (t : Fin cfg0.N) :
    (dat0 (F := Ideal) V c).flushed 2 t
      = ((cfg0.win 2).blk t).view.read (Elt Ideal) (Cert.Spec.mm (a := 100000) (K := 128) (b := 32) (V c main_arg0) (V c main_arg4)) := by
  show (cfg0.win 2).cut (grid0.coords t) ((dat0 V c).after 2 t) = _
  rw [after0_2]
  obtain ⟨-, -, -, -, e4, e5⟩ := block_index0 t
  funext j
  show out0_2 (iblk0 V c 0 t) (iblk0 V c 1 t) j
    = Cert.Spec.mm (a := 100000) (K := 128) (b := 32) (V c main_arg0) (V c main_arg4) (((cfg0.win 2).blk t).view.emb j)
  refine rows_of_product (K := 128) (out0_2 (F := Ideal)) out0_2_apply (iblk0 V c 0 t) (iblk0 V c 1 t) (V c main_arg0) (V c main_arg4) t.val
    (fun p k i => left_block0 V c t p k i) (right_block0 V c t) j (((cfg0.win 2).blk t).view.emb j) ?_ ?_
  · show win0_2.index t (0 : Fin 2) * 10000 + 1 * (j 0).val = t.val * 10000 + (j 0).val; rw [e4]; omega
  · show win0_2.index t (1 : Fin 2) * 32 + 1 * (j 1).val = (j 1).val; rw [e5]; omega

/-- An index of the result array lies in point `t`'s block iff each coordinate is in the block's range on its axis. -/
theorem mem_block0 (t : Fin cfg0.N) (i : S100000x32.Idx) :
    i ∈ ((cfg0.win 2).blk t).view.set
      ↔ ∀ a : Fin 2, win0_2.index t a * S10000x32.size a ≤ (i a).val ∧ (i a).val < win0_2.index t a * S10000x32.size a + S10000x32.size a := by
  show i ∈ ((View.whole main_v32).slice (win0_2.rect t)).set ↔ _
  rw [View.set_slice_whole, Rect.mem_set_unit]
  exact Iff.rfl

/-- The ten blocks cover the result array: row r lies in the block of point r / 10000, which is written back. -/
theorem covered0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  let t : Fin cfg0.N := ⟨(i 0).val / 10000, by rw [hN]; omega⟩
  refine ⟨t, flush0_2 t, ?_⟩
  obtain ⟨-, -, -, -, e4, e5⟩ := block_index0 t
  have ht : t.val = (i 0).val / 10000 := rfl
  rw [mem_block0]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 32 ≤ (i 1).val ∧ (i 1).val < win0_2.index t (1 : Fin 2) * 32 + 32; rw [e5]; omega

/-- The result array after region 0 is the product of the two operands as the region finds them. -/
theorem region0_value (c : Dev nD) :
    (dat0 (F := Ideal) V c).arrAt 2 cfg0.N = Cert.Spec.mm (a := 100000) (K := 128) (b := 32) (V c main_arg0) (V c main_arg4) :=
  (dat0 (F := Ideal) V c).arrAt_eq_of_cover 2 (Cert.Spec.mm (a := 100000) (K := 128) (b := 32) (V c main_arg0) (V c main_arg4))
    (fun t _ => written_back0 V c t) covered0

/-! ## Region 1: the first layer's output times the second layer's weights -/

/-- What the body leaves in the output window's buffer, at an entry: the product of the two loaded blocks.  The one
    store covers the buffer, the loads read the whole staging buffers, narrowing to 16 bits changes nothing on the
    extended reals, and the accumulator starts at zero. -/
theorem out1_2_apply (x0 : Vec Ideal S10000x32 .f32) (x1 : Vec Ideal S32x32 .f32) (p : Fin 10000) (q : Fin 32) :
    out1_2 x0 x1 (ix2 p q) = ∑ k : Fin 32, x0 (ix2 p k) * x1 (ix2 k q) := by
  unfold out1_2
  rw [View.canon_unit_zero zero_offsets]
  simp only [View.ld_unit_zero (S := S10000x32) zero_offsets, View.ld_unit_zero (S := S32x32) zero_offsets]
  unfold k1_pay1
  simp only [shapeCast_self]
  exact Cert.LibPlainDot.matmul_zero_apply dot_S10000x32_S32x32_S10000x32_1_0_0_1_n_n ⟨rfl, rfl, rfl, rfl, rfl, rfl⟩ none x0 x1 p q

/-- The block indices over the grid: the left and the output window move down one block of rows per point, the
    right window stays on its only block. -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point `t` is rows 10000·t … 10000·t + 9999 of the left operand. -/
theorem left_block1 (c : Dev nD) (t : Fin cfg1.N) (p : Fin 10000) (k : Fin 32) (i : S100000x32.Idx)
    (hi0 : (i 0).val = t.val * 10000 + p.val) (hi1 : (i 1).val = k.val) :
    (iblk1 V c 0 t : Vec Ideal S10000x32 .f32) (ix2 p k) = (V c main_v49 : S100000x32.Idx → EReal) i := by
  obtain ⟨e0, e1, -, -, -, -⟩ := block_index1 t
  unfold iblk1
  rw [View.read_apply]
  show V c main_v49 _ = V c main_v49 _
  congr 1
  funext a
  apply Fin.ext
  match a with
  | ⟨0, _⟩ => show win1_0.index t 0 * 10000 + 1 * p.val = (i 0).val; rw [e0, hi0]; omega
  | ⟨1, _⟩ => show win1_0.index t 1 * 32 + 1 * k.val = (i 1).val; rw [e1, hi1]; omega

/-- The right window's block at every point is the whole right operand. -/
theorem right_block1 (c : Dev nD) (t : Fin cfg1.N) (k : Fin 32) (q : Fin 32) :
    (iblk1 V c 1 t : Vec Ideal S32x32 .f32) (ix2 k q) = (V c main_arg6 : S32x32.Idx → EReal) (ix2 k q) := by
  obtain ⟨-, -, e2, e3, -, -⟩ := block_index1 t
  unfold iblk1
  rw [View.read_apply]
  show V c main_arg6 _ = V c main_arg6 _
  congr 1
  funext a
  apply Fin.ext
  match a with
  | ⟨0, _⟩ => show win1_1.index t 0 * 32 + 1 * k.val = k.val; rw [e2]; omega
  | ⟨1, _⟩ => show win1_1.index t 1 * 32 + 1 * q.val = q.val; rw [e3]; omega

/-- What point `t` writes back is block `t` of the product of the two operands as the region finds them. -/
theorem written_back1 (c : Dev nD) (t : Fin cfg1.N) :
    (dat1 (F := Ideal) V c).flushed 2 t
      = ((cfg1.win 2).blk t).view.read (Elt Ideal) (Cert.Spec.mm (a := 100000) (K := 32) (b := 32) (V c main_v49) (V c main_arg6)) := by
  show (cfg1.win 2).cut (grid1.coords t) ((dat1 V c).after 2 t) = _
  rw [after1_2]
  obtain ⟨-, -, -, -, e4, e5⟩ := block_index1 t
  funext j
  show out1_2 (iblk1 V c 0 t) (iblk1 V c 1 t) j
    = Cert.Spec.mm (a := 100000) (K := 32) (b := 32) (V c main_v49) (V c main_arg6) (((cfg1.win 2).blk t).view.emb j)
  refine rows_of_product (K := 32) (out1_2 (F := Ideal)) out1_2_apply (iblk1 V c 0 t) (iblk1 V c 1 t) (V c main_v49) (V c main_arg6) t.val
    (fun p k i => left_block1 V c t p k i) (right_block1 V c t) j (((cfg1.win 2).blk t).view.emb j) ?_ ?_
  · show win1_2.index t (0 : Fin 2) * 10000 + 1 * (j 0).val = t.val * 10000 + (j 0).val; rw [e4]; omega
  · show win1_2.index t (1 : Fin 2) * 32 + 1 * (j 1).val = (j 1).val; rw [e5]; omega

/-- An index of the result array lies in point `t`'s block iff each coordinate is in the block's range on its axis. -/
theorem mem_block1 (t : Fin cfg1.N) (i : S100000x32.Idx) :
    i ∈ ((cfg1.win 2).blk t).view.set
      ↔ ∀ a : Fin 2, win1_2.index t a * S10000x32.size a ≤ (i a).val ∧ (i a).val < win1_2.index t a * S10000x32.size a + S10000x32.size a := by
  show i ∈ ((View.whole main_v50).slice (win1_2.rect t)).set ↔ _
  rw [View.set_slice_whole, Rect.mem_set_unit]
  exact Iff.rfl

/-- The ten blocks cover the result array: row r lies in the block of point r / 10000, which is written back. -/
theorem covered1 (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := N_1
  let t : Fin cfg1.N := ⟨(i 0).val / 10000, by rw [hN]; omega⟩
  refine ⟨t, flush1_2 t, ?_⟩
  obtain ⟨-, -, -, -, e4, e5⟩ := block_index1 t
  have ht : t.val = (i 0).val / 10000 := rfl
  rw [mem_block1]
  intro a
  match a with
  | ⟨0, _⟩ => show win1_2.index t (0 : Fin 2) * 10000 ≤ (i 0).val ∧ (i 0).val < win1_2.index t (0 : Fin 2) * 10000 + 10000; rw [e4, ht]; omega
  | ⟨1, _⟩ => show win1_2.index t (1 : Fin 2) * 32 ≤ (i 1).val ∧ (i 1).val < win1_2.index t (1 : Fin 2) * 32 + 32; rw [e5]; omega

/-- The result array after region 1 is the product of the two operands as the region finds them. -/
theorem region1_value (c : Dev nD) :
    (dat1 (F := Ideal) V c).arrAt 2 cfg1.N = Cert.Spec.mm (a := 100000) (K := 32) (b := 32) (V c main_v49) (V c main_arg6) :=
  (dat1 (F := Ideal) V c).arrAt_eq_of_cover 2 (Cert.Spec.mm (a := 100000) (K := 32) (b := 32) (V c main_v49) (V c main_arg6))
    (fun t _ => written_back1 V c t) covered1

/-! ## Region 2: the second layer's output times the third layer's weights -/

/-- What the body leaves in the output window's buffer, at an entry: the product of the two loaded blocks.  The one
    store covers the buffer, the loads read the whole staging buffers, narrowing to 16 bits changes nothing on the
    extended reals, and the accumulator starts at zero. -/
theorem out2_2_apply (x0 : Vec Ideal S10000x32 .f32) (x1 : Vec Ideal S32x32 .f32) (p : Fin 10000) (q : Fin 32) :
    out2_2 x0 x1 (ix2 p q) = ∑ k : Fin 32, x0 (ix2 p k) * x1 (ix2 k q) := by
  unfold out2_2
  rw [View.canon_unit_zero zero_offsets]
  simp only [View.ld_unit_zero (S := S10000x32) zero_offsets, View.ld_unit_zero (S := S32x32) zero_offsets]
  unfold k2_pay1
  simp only [shapeCast_self]
  exact Cert.LibPlainDot.matmul_zero_apply dot_S10000x32_S32x32_S10000x32_1_0_0_1_n_n ⟨rfl, rfl, rfl, rfl, rfl, rfl⟩ none x0 x1 p q

/-- The block indices over the grid: the left and the output window move down one block of rows per point, the
    right window stays on its only block. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point `t` is rows 10000·t … 10000·t + 9999 of the left operand. -/
theorem left_block2 (c : Dev nD) (t : Fin cfg2.N) (p : Fin 10000) (k : Fin 32) (i : S100000x32.Idx)
    (hi0 : (i 0).val = t.val * 10000 + p.val) (hi1 : (i 1).val = k.val) :
    (iblk2 V c 0 t : Vec Ideal S10000x32 .f32) (ix2 p k) = (V c main_v67 : S100000x32.Idx → EReal) i := by
  obtain ⟨e0, e1, -, -, -, -⟩ := block_index2 t
  unfold iblk2
  rw [View.read_apply]
  show V c main_v67 _ = V c main_v67 _
  congr 1
  funext a
  apply Fin.ext
  match a with
  | ⟨0, _⟩ => show win2_0.index t 0 * 10000 + 1 * p.val = (i 0).val; rw [e0, hi0]; omega
  | ⟨1, _⟩ => show win2_0.index t 1 * 32 + 1 * k.val = (i 1).val; rw [e1, hi1]; omega

/-- The right window's block at every point is the whole right operand. -/
theorem right_block2 (c : Dev nD) (t : Fin cfg2.N) (k : Fin 32) (q : Fin 32) :
    (iblk2 V c 1 t : Vec Ideal S32x32 .f32) (ix2 k q) = (V c main_arg8 : S32x32.Idx → EReal) (ix2 k q) := by
  obtain ⟨-, -, e2, e3, -, -⟩ := block_index2 t
  unfold iblk2
  rw [View.read_apply]
  show V c main_arg8 _ = V c main_arg8 _
  congr 1
  funext a
  apply Fin.ext
  match a with
  | ⟨0, _⟩ => show win2_1.index t 0 * 32 + 1 * k.val = k.val; rw [e2]; omega
  | ⟨1, _⟩ => show win2_1.index t 1 * 32 + 1 * q.val = q.val; rw [e3]; omega

/-- What point `t` writes back is block `t` of the product of the two operands as the region finds them. -/
theorem written_back2 (c : Dev nD) (t : Fin cfg2.N) :
    (dat2 (F := Ideal) V c).flushed 2 t
      = ((cfg2.win 2).blk t).view.read (Elt Ideal) (Cert.Spec.mm (a := 100000) (K := 32) (b := 32) (V c main_v67) (V c main_arg8)) := by
  show (cfg2.win 2).cut (grid2.coords t) ((dat2 V c).after 2 t) = _
  rw [after2_2]
  obtain ⟨-, -, -, -, e4, e5⟩ := block_index2 t
  funext j
  show out2_2 (iblk2 V c 0 t) (iblk2 V c 1 t) j
    = Cert.Spec.mm (a := 100000) (K := 32) (b := 32) (V c main_v67) (V c main_arg8) (((cfg2.win 2).blk t).view.emb j)
  refine rows_of_product (K := 32) (out2_2 (F := Ideal)) out2_2_apply (iblk2 V c 0 t) (iblk2 V c 1 t) (V c main_v67) (V c main_arg8) t.val
    (fun p k i => left_block2 V c t p k i) (right_block2 V c t) j (((cfg2.win 2).blk t).view.emb j) ?_ ?_
  · show win2_2.index t (0 : Fin 2) * 10000 + 1 * (j 0).val = t.val * 10000 + (j 0).val; rw [e4]; omega
  · show win2_2.index t (1 : Fin 2) * 32 + 1 * (j 1).val = (j 1).val; rw [e5]; omega

/-- An index of the result array lies in point `t`'s block iff each coordinate is in the block's range on its axis. -/
theorem mem_block2 (t : Fin cfg2.N) (i : S100000x32.Idx) :
    i ∈ ((cfg2.win 2).blk t).view.set
      ↔ ∀ a : Fin 2, win2_2.index t a * S10000x32.size a ≤ (i a).val ∧ (i a).val < win2_2.index t a * S10000x32.size a + S10000x32.size a := by
  show i ∈ ((View.whole main_v68).slice (win2_2.rect t)).set ↔ _
  rw [View.set_slice_whole, Rect.mem_set_unit]
  exact Iff.rfl

/-- The ten blocks cover the result array: row r lies in the block of point r / 10000, which is written back. -/
theorem covered2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := N_2
  let t : Fin cfg2.N := ⟨(i 0).val / 10000, by rw [hN]; omega⟩
  refine ⟨t, flush2_2 t, ?_⟩
  obtain ⟨-, -, -, -, e4, e5⟩ := block_index2 t
  have ht : t.val = (i 0).val / 10000 := rfl
  rw [mem_block2]
  intro a
  match a with
  | ⟨0, _⟩ => show win2_2.index t (0 : Fin 2) * 10000 ≤ (i 0).val ∧ (i 0).val < win2_2.index t (0 : Fin 2) * 10000 + 10000; rw [e4, ht]; omega
  | ⟨1, _⟩ => show win2_2.index t (1 : Fin 2) * 32 ≤ (i 1).val ∧ (i 1).val < win2_2.index t (1 : Fin 2) * 32 + 32; rw [e5]; omega

/-- The result array after region 2 is the product of the two operands as the region finds them. -/
theorem region2_value (c : Dev nD) :
    (dat2 (F := Ideal) V c).arrAt 2 cfg2.N = Cert.Spec.mm (a := 100000) (K := 32) (b := 32) (V c main_v67) (V c main_arg8) :=
  (dat2 (F := Ideal) V c).arrAt_eq_of_cover 2 (Cert.Spec.mm (a := 100000) (K := 32) (b := 32) (V c main_v67) (V c main_arg8))
    (fun t _ => written_back2 V c t) covered2

end Cert.KernelIdeal.Regions

end
-- ==== Proof.MlpRegion.lean ====
/-
  The last region of the kernel and the last stage of the reference are the same perceptron.

  Kernel side.  The last matrix-unit region has a single grid point, and each of its eight windows has one block: the
  whole of its array at offset zero.  So the array the region leaves is the body's result of the seven whole operand
  arrays.  The body is, three times over, a matrix product into a zero accumulator (the operands rounded to bf16, which
  changes nothing on the extended reals) plus a one-row bias broadcast down the rows, the first two followed by the
  maximum with the zero constant.  Entry by entry that is x ↦ max(x·W + β, 0) twice and x·W + β once.

  Reference side.  The same three layers as one contraction each, the bias vector [b] broadcast to [1, b] and then down
  the rows, and the maximum against a broadcast zero.  Entry by entry that is the same function, with each bias vector
  read as a one-row matrix.

  The two host reshapes that turn a bias vector into the one-row array the region reads are read at an index as well.
-/
import proofs.«175702_j23957327577458_1_alg».proof.Proof.Gen.KernelIdeal.Frame
import proofs.«175702_j23957327577458_1_alg».proof.Proof.Gen.ReferenceIdeal.Read
import proofs.«175702_j23957327577458_1_alg».proof.Proof.Spec
import proofs.«175702_j23957327577458_1_alg».proof.Proof.LibPlainDot
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

/-! # The kernel's last region -/

namespace Cert.KernelIdeal.Regions.Mlp

open Cert.KernelIdeal Cert.KernelIdeal.Gen
open Idealize.ShloMosaic Idealize.ShloMosaic.TcCoe Idealize.ShloMosaic.ValueIdx
open Idealize.ShloMosaic.Pipeline (Dat)

section Frame
variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! Every window of the last region has one block, the whole of its array, at offset zero. -/

theorem blk3_0 (c : Dev nD) (t : Fin cfg3.N) : iblk3 V c 0 t = (V c main_v96 : S64x32.Idx → Elt F .f32) := by
  unfold iblk3
  have hz' : (fun a => win3_0.index t a * main_v96.ty.shape.size a) = fun _ => 0 := funext fun a => by fin_cases a <;> rfl
  exact Memref.read_access_unit_zero (Elt F) main_v96 hz' (fun a => by rw [congrFun hz' a]; simp) _

theorem blk3_1 (c : Dev nD) (t : Fin cfg3.N) : iblk3 V c 1 t = (V c main_arg10 : S32x64.Idx → Elt F .f32) := by
  unfold iblk3
  have hz' : (fun a => win3_1.index t a * main_arg10.ty.shape.size a) = fun _ => 0 := funext fun a => by fin_cases a <;> rfl
  exact Memref.read_access_unit_zero (Elt F) main_arg10 hz' (fun a => by rw [congrFun hz' a]; simp) _

theorem blk3_2 (c : Dev nD) (t : Fin cfg3.N) : iblk3 V c 2 t = (V c main_v97 : S1x64.Idx → Elt F .f32) := by
  unfold iblk3
  have hz' : (fun a => win3_2.index t a * main_v97.ty.shape.size a) = fun _ => 0 := funext fun a => by fin_cases a <;> rfl
  exact Memref.read_access_unit_zero (Elt F) main_v97 hz' (fun a => by rw [congrFun hz' a]; simp) _

theorem blk3_3 (c : Dev nD) (t : Fin cfg3.N) : iblk3 V c 3 t = (V c main_arg12 : S64x64.Idx → Elt F .f32) := by
  unfold iblk3
  have hz' : (fun a => win3_3.index t a * main_arg12.ty.shape.size a) = fun _ => 0 := funext fun a => by fin_cases a <;> rfl
  exact Memref.read_access_unit_zero (Elt F) main_arg12 hz' (fun a => by rw [congrFun hz' a]; simp) _

theorem blk3_4 (c : Dev nD) (t : Fin cfg3.N) : iblk3 V c 4 t = (V c main_v98 : S1x64.Idx → Elt F .f32) := by
  unfold iblk3
  have hz' : (fun a => win3_4.index t a * main_v98.ty.shape.size a) = fun _ => 0 := funext fun a => by fin_cases a <;> rfl
  exact Memref.read_access_unit_zero (Elt F) main_v98 hz' (fun a => by rw [congrFun hz' a]; simp) _

theorem blk3_5 (c : Dev nD) (t : Fin cfg3.N) : iblk3 V c 5 t = (V c main_arg14 : S64x10.Idx → Elt F .f32) := by
  unfold iblk3
  have hz' : (fun a => win3_5.index t a * main_arg14.ty.shape.size a) = fun _ => 0 := funext fun a => by fin_cases a <;> rfl
  exact Memref.read_access_unit_zero (Elt F) main_arg14 hz' (fun a => by rw [congrFun hz' a]; simp) _

theorem blk3_6 (c : Dev nD) (t : Fin cfg3.N) : iblk3 V c 6 t = (V c main_v99 : S1x10.Idx → Elt F .f32) := by
  unfold iblk3
  have hz' : (fun a => win3_6.index t a * main_v99.ty.shape.size a) = fun _ => 0 := funext fun a => by fin_cases a <;> rfl
  exact Memref.read_access_unit_zero (Elt F) main_v99 hz' (fun a => by rw [congrFun hz' a]; simp) _

/-- What the one grid point writes back is the body's result of the seven whole operand arrays, read through the
    output's one block. -/
theorem flushed3_7 (c : Dev nD) (t : Fin cfg3.N) :
    (dat3 V c).flushed 7 t = ((cfg3.win 7).blk t).view.read (Elt F)
      (k3_pay1 (V c main_v96) (V c main_arg10) (V c main_v97) (V c main_arg12) (V c main_v98) (V c main_arg14) (V c main_v99)) := by
  show (cfg3.win 7).cut (grid3.coords t) ((dat3 V c).after 7 t) = _
  rw [after3_7]
  unfold out3_7
  rw [View.canon_unit_zero hz]
  simp only [View.ld_unit_zero (S := S64x32) hz, View.ld_unit_zero (S := S32x64) hz, View.ld_unit_zero (S := S1x64) hz,
    View.ld_unit_zero (S := S64x64) hz, View.ld_unit_zero (S := S64x10) hz, View.ld_unit_zero (S := S1x10) hz]
  rw [blk3_0, blk3_1, blk3_2, blk3_3, blk3_4, blk3_5, blk3_6]
  have hz' : (fun a => win3_7.index t a * main_v100.ty.shape.size a) = fun _ => 0 := funext fun a => by fin_cases a <;> rfl
  exact (Memref.read_access_unit_zero (Elt F) main_v100 hz' (fun a => by rw [congrFun hz' a]; simp) _).symm

/-- The output array after the last region: the body's result of the seven whole operand arrays. -/
theorem region3_array (c : Dev nD) : (dat3 V c).arrAt 7 cfg3.N
    = k3_pay1 (V c main_v96) (V c main_arg10) (V c main_v97) (V c main_arg12) (V c main_v98) (V c main_arg14) (V c main_v99) :=
  (dat3 V c).arrAt_eq_of_cover 7 _ (fun t _ => flushed3_7 V c t) fun i =>
    ⟨t3_0, flush3_7 t3_0, by
      show i ∈ ((View.whole main_v100).slice (win3_7.rect t3_0)).set
      rw [View.set_slice_whole, Rect.mem_set_unit]
      intro a
      have h0 : (i 0 : Nat) < 64 := (i 0).isLt
      have h1 : (i 1 : Nat) < 10 := (i 1).isLt
      match a with
      | ⟨0, _⟩ => show 0 * 64 ≤ (i 0 : Nat) ∧ (i 0 : Nat) < 0 * 64 + 64; omega
      | ⟨1, _⟩ => show 0 * 10 ≤ (i 1 : Nat) ∧ (i 1 : Nat) < 0 * 10 + 10; omega⟩

end Frame

section Payload

/-- One layer before its threshold, entry by entry: the matrix product into the zero accumulator (rounding the operands
    to bf16 changes nothing on the extended reals) plus the bias row broadcast down the rows. -/
theorem affine_apply {a K b : ℕ} (D : DotDims ⟨2, ![a, K]⟩ ⟨2, ![K, b]⟩ ⟨2, ![a, b]⟩) (hD : Cert.LibPlainDot.IsPlain D)
    (X : FVec Ideal ⟨2, ![a, K]⟩ .f32) (W : FVec Ideal ⟨2, ![K, b]⟩ .f32) (β : FVec Ideal ⟨2, ![1, b]⟩ .f32)
    (h1 : FTy.bf16.bits < FTy.f32.bits) (h2 : FTy.bf16.bits < FTy.f32.bits)
    (hc : (⟨2, ![1, b]⟩ : Shape).ShapeCasts ⟨2, ![1, b]⟩) (hb : (⟨2, ![1, b]⟩ : Shape).Broadcasts ⟨2, ![a, b]⟩)
    (p : Fin a) (q : Fin b) :
    addf (matmul D none (truncf .bf16 X h1) (truncf .bf16 W h2) (constant ⟨2, ![a, b]⟩ .f32 0x00000000#32))
        (broadcastTo ⟨2, ![a, b]⟩ (shapeCast ⟨2, ![1, b]⟩ β hc) hb) (ix2 p q)
      = Cert.Spec.affine X W β (ix2 p q) := by
  rw [addf_apply, broadcastTo_1b_ab_apply, shapeCast_self]
  exact congrArg (· + β (ix2 0 q)) (Cert.LibPlainDot.matmul_zero_apply D hD none (truncf .bf16 X h1) (truncf .bf16 W h2) p q)

/-- A layer with its threshold: the maximum with the zero constant. -/
theorem relu_affine_eq {a K b : ℕ} (D : DotDims ⟨2, ![a, K]⟩ ⟨2, ![K, b]⟩ ⟨2, ![a, b]⟩) (hD : Cert.LibPlainDot.IsPlain D)
    (X : FVec Ideal ⟨2, ![a, K]⟩ .f32) (W : FVec Ideal ⟨2, ![K, b]⟩ .f32) (β : FVec Ideal ⟨2, ![1, b]⟩ .f32)
    (h1 : FTy.bf16.bits < FTy.f32.bits) (h2 : FTy.bf16.bits < FTy.f32.bits)
    (hc : (⟨2, ![1, b]⟩ : Shape).ShapeCasts ⟨2, ![1, b]⟩) (hb : (⟨2, ![1, b]⟩ : Shape).Broadcasts ⟨2, ![a, b]⟩) :
    (maximumf (addf (matmul D none (truncf .bf16 X h1) (truncf .bf16 W h2) (constant ⟨2, ![a, b]⟩ .f32 0x00000000#32))
        (broadcastTo ⟨2, ![a, b]⟩ (shapeCast ⟨2, ![1, b]⟩ β hc) hb))
      (broadcast ⟨2, ![a, b]⟩ (Scalar.ofBits (F := Ideal) .f32 0x00000000#32)) : FVec Ideal ⟨2, ![a, b]⟩ .f32)
      = fun i => max (Cert.Spec.affine X W β i) 0 := by
  funext i
  obtain ⟨p, q, rfl⟩ : ∃ (p : Fin a) (q : Fin b), i = ix2 p q := ⟨i 0, i 1, eq_ix2 i⟩
  rw [maximumf_apply, affine_apply D hD X W β h1 h2 hc hb p q, broadcast_apply]
  exact congrArg (max _) Ideal.ofBits_zero_f32

/-- The body's result is the perceptron of its seven operands. -/
theorem pay_eq (x0 : Vec Ideal S64x32 .f32) (x1 : Vec Ideal S32x64 .f32) (x2 : Vec Ideal S1x64 .f32) (x3 : Vec Ideal S64x64 .f32)
    (x4 : Vec Ideal S1x64 .f32) (x5 : Vec Ideal S64x10 .f32) (x6 : Vec Ideal S1x10 .f32) :
    k3_pay1 (F := Ideal) x0 x1 x2 x3 x4 x5 x6 = Cert.Spec.mlp x0 x1 x2 x3 x4 x5 x6 := by
  funext i
  obtain ⟨p, q, rfl⟩ : ∃ (p : Fin 64) (q : Fin 10), i = ix2 p q := ⟨i 0, i 1, eq_ix2 i⟩
  unfold k3_pay1 Cert.Spec.mlp
  rw [shapeCast_self x0]
  refine (affine_apply dot_S64x64_S64x10_S64x10_1_0_0_1_n_n ⟨rfl, rfl, rfl, rfl, rfl, rfl⟩ _ x5 x6 _ _ _ _ p q).trans ?_
  rw [relu_affine_eq dot_S64x64_S64x64_S64x64_1_0_0_1_n_n ⟨rfl, rfl, rfl, rfl, rfl, rfl⟩ _ x3 x4,
    relu_affine_eq dot_S64x32_S32x64_S64x64_1_0_0_1_n_n ⟨rfl, rfl, rfl, rfl, rfl, rfl⟩ x0 x1 x2]

end Payload

end Cert.KernelIdeal.Regions.Mlp

namespace Cert.KernelIdeal.Regions

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The array the last region leaves is the perceptron of the seven arrays it reads. -/
theorem region3_value (c : Dev nD) : (dat3 (F := Ideal) V c).arrAt 7 cfg3.N
    = Cert.Spec.mlp (V c main_v96) (V c main_arg10) (V c main_v97) (V c main_arg12) (V c main_v98) (V c main_arg14) (V c main_v99) :=
  (Mlp.region3_array V c).trans (Mlp.pay_eq _ _ _ _ _ _ _)

/-- A vector of 64 entries reshaped to one row. -/
theorem reshape_row64 (v : (⟨S64, .f32⟩ : BufTy).Contents (Elt Ideal)) :
    shapeCast S1x64 v shapeCasts_S64_S1x64 = Cert.Spec.row (b := 64) v := by
  funext i
  obtain ⟨u, j, rfl⟩ : ∃ (u : Fin 1) (j : Fin 64), i = ix2 u j := ⟨i 0, i 1, eq_ix2 i⟩
  exact shapeCast_a_1a_apply v shapeCasts_S64_S1x64 u j

/-- A vector of 10 entries reshaped to one row. -/
theorem reshape_row10 (v : (⟨S10, .f32⟩ : BufTy).Contents (Elt Ideal)) :
    shapeCast S1x10 v shapeCasts_S10_S1x10 = Cert.Spec.row (b := 10) v := by
  funext i
  obtain ⟨u, j, rfl⟩ : ∃ (u : Fin 1) (j : Fin 10), i = ix2 u j := ⟨i 0, i 1, eq_ix2 i⟩
  exact shapeCast_a_1a_apply v shapeCasts_S10_S1x10 u j

end Cert.KernelIdeal.Regions

/-! # The reference's last stage -/

namespace Cert.ReferenceIdeal.RefMlp

open Cert.ReferenceIdeal Cert.ReferenceIdeal.Gen Cert.ReferenceIdeal.Read
open Idealize.ShloMosaic Idealize.ShloMosaic.ValueIdx

/-- A bias vector broadcast to one row and then down the rows reads, at (p, q), the vector at q. -/
theorem bias_apply {a b : ℕ} (v : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 v) (ix2 p q) = v (ix1 q) := by
  refine (broadcastInDim_apply _ h2 _ (ix2 p q) (ix2 (0 : Fin 1) q) fun ax => ?_).trans ?_
  · match ax with
    | ⟨0, _⟩ => show 0 = if (1 : ℕ) = 1 then 0 else p.val; rw [if_pos rfl]
    | ⟨1, _⟩ =>
      show q.val = if b = 1 then 0 else q.val
      split
      · have := q.isLt; omega
      · rfl
  · refine broadcastInDim_apply _ h1 v (ix2 (0 : Fin 1) q) (ix1 q) fun ax => ?_
    match ax with
    | ⟨0, _⟩ =>
      show q.val = if b = 1 then 0 else q.val
      split
      · have := q.isLt; omega
      · rfl

/-- One layer before its threshold, entry by entry: the contraction plus the broadcast bias. -/
theorem affine_apply {a K b : ℕ} (D : DotDims ⟨2, ![a, K]⟩ ⟨2, ![K, b]⟩ ⟨2, ![a, b]⟩) (hD : Cert.LibPlainDot.IsPlain D)
    (X : FVec Ideal ⟨2, ![a, K]⟩ .f32) (W : FVec Ideal ⟨2, ![K, b]⟩ .f32) (v : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    addf (Host.dotGeneral D none X W) (broadcastInDim ⟨2, ![a, b]⟩ ![0, 1] h2 (broadcastInDim ⟨2, ![1, b]⟩ ![1] h1 v)) (ix2 p q)
      = Cert.Spec.affine X W (Cert.Spec.row v) (ix2 p q) := by
  rw [addf_apply, bias_apply v h1 h2 p q]
  exact congrArg (· + v (ix1 q)) (Cert.LibPlainDot.dotGeneral_apply D hD none .single X W p q)

/-- A layer with its threshold: the maximum with a broadcast zero. -/
theorem relu_affine_eq {a K b : ℕ} (D : DotDims ⟨2, ![a, K]⟩ ⟨2, ![K, b]⟩ ⟨2, ![a, b]⟩) (hD : Cert.LibPlainDot.IsPlain D)
    (X : FVec Ideal ⟨2, ![a, K]⟩ .f32) (W : FVec Ideal ⟨2, ![K, b]⟩ .f32) (v : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1])
    (h0 : (⟨0, ![]⟩ : Shape).BroadcastsInDim ⟨2, ![a, b]⟩ ![]) :
    (maximumf (addf (Host.dotGeneral D none X W) (broadcastInDim ⟨2, ![a, b]⟩ ![0, 1] h2 (broadcastInDim ⟨2, ![1, b]⟩ ![1] h1 v)))
      (broadcastInDim ⟨2, ![a, b]⟩ ![] h0 (constant (F := Ideal) ⟨0, ![]⟩ .f32 0x00000000#32)) : FVec Ideal ⟨2, ![a, b]⟩ .f32)
      = fun i => max (Cert.Spec.affine X W (Cert.Spec.row v) i) 0 := by
  funext i
  obtain ⟨p, q, rfl⟩ : ∃ (p : Fin a) (q : Fin b), i = ix2 p q := ⟨i 0, i 1, eq_ix2 i⟩
  rw [maximumf_apply, affine_apply D hD X W v h1 h2 p q]
  refine congrArg (max _) ?_
  exact (broadcastInDim_apply _ h0 _ (ix2 p q) ix0 fun ax => ax.elim0).trans Ideal.ofBits_zero_f32

/-- The reference's last stage is the perceptron of the pooled features, each bias vector read as a one-row matrix. -/
theorem ref_mlp (x0 : (⟨S100000x128, .f32⟩ : BufTy).Contents (Elt Ideal)) (x1 : (⟨S2x3200000, .i32⟩ : BufTy).Contents (Elt Ideal))
    (x2 : (⟨S3200000, .f32⟩ : BufTy).Contents (Elt Ideal)) (x3 : (⟨S100000, .i32⟩ : BufTy).Contents (Elt Ideal))
    (x4 : (⟨S128x32, .f32⟩ : BufTy).Contents (Elt Ideal)) (x5 : (⟨S32, .f32⟩ : BufTy).Contents (Elt Ideal))
    (x6 : (⟨S32x32, .f32⟩ : BufTy).Contents (Elt Ideal)) (x7 : (⟨S32, .f32⟩ : BufTy).Contents (Elt Ideal))
    (x8 : (⟨S32x32, .f32⟩ : BufTy).Contents (Elt Ideal)) (x9 : (⟨S32, .f32⟩ : BufTy).Contents (Elt Ideal))
    (x10 : (⟨S32x64, .f32⟩ : BufTy).Contents (Elt Ideal)) (x11 : (⟨S64, .f32⟩ : BufTy).Contents (Elt Ideal))
    (x12 : (⟨S64x64, .f32⟩ : BufTy).Contents (Elt Ideal)) (x13 : (⟨S64, .f32⟩ : BufTy).Contents (Elt Ideal))
    (x14 : (⟨S64x10, .f32⟩ : BufTy).Contents (Elt Ideal)) (x15 : (⟨S10, .f32⟩ : BufTy).Contents (Elt Ideal)) :
    Read.val_main_v166 (F := Ideal) x0 x1 x2 x3 x4 x5 x6 x7 x8 x9 x10 x11 x12 x13 x14 x15
      = Cert.Spec.mlp (Read.val_main_v152 (F := Ideal) x0 x1 x2 x3 x4 x5 x6 x7 x8 x9) x10 (Cert.Spec.row x11) x12 (Cert.Spec.row x13)
          x14 (Cert.Spec.row x15) := by
  unfold Read.val_main_v166 Read.val_main_v165 Read.val_main_v164 Read.val_main_v163 Read.val_main_v162 Read.val_main_call6_v0
    Read.val_main_call6_cst Read.val_main_v161 Read.val_main_v160 Read.val_main_v159 Read.val_main_v158 Read.val_main_v157
    Read.val_main_call5_v0 Read.val_main_call5_cst Read.val_main_v156 Read.val_main_v155 Read.val_main_v154 Read.val_main_v153
  generalize Read.val_main_v152 (F := Ideal) x0 x1 x2 x3 x4 x5 x6 x7 x8 x9 = g
  rw [relu_affine_eq dot_S64x32_S32x64_S64x64_1_0_0_1_n_n ⟨rfl, rfl, rfl, rfl, rfl, rfl⟩ g x10 x11,
    relu_affine_eq dot_S64x64_S64x64_S64x64_1_0_0_1_n_n ⟨rfl, rfl, rfl, rfl, rfl, rfl⟩ _ x12 x13]
  funext i
  obtain ⟨p, q, rfl⟩ : ∃ (p : Fin 64) (q : Fin 10), i = ix2 p q := ⟨i 0, i 1, eq_ix2 i⟩
  exact affine_apply dot_S64x64_S64x10_S64x10_1_0_0_1_n_n ⟨rfl, rfl, rfl, rfl, rfl, rfl⟩ _ x14 x15 _ _ p q

end Cert.ReferenceIdeal.RefMlp

end
-- ==== Proof.KernelHost.lean ====
/-
  What the host operations between the matrix-product regions leave in the arrays those regions read.

  Every host operation writes one array, its result, from the arrays it reads; what an array holds after a stretch of
  such operations is therefore the composition of the operations that lead to it, applied to what the stretch found.
  Before the first product the host computes, from the edge list and the edge weights alone, the source and target of
  every edge with the self loops appended and the symmetric normalisation norm e = dinv (r e) · w e · dinv (c e); none of
  the later operations or regions writes these three arrays, so every later stretch finds them unchanged.  Between two
  products the host computes one aggregation n ↦ Σ_{e : c e = n} norm e · h (r e) + bias of the product h just formed and
  takes max(·, 0); before the perceptron it computes the last aggregation, the mean over every group of nodes, and the
  three bias vectors as one-row matrices.  The argument arrays are written by nothing and are as launched throughout.
-/
import proofs.«175702_j23957327577458_1_alg».proof.Proof.Gen.KernelIdeal.Frame
import proofs.«175702_j23957327577458_1_alg».proof.Proof.Spec
import Idealize.ShloMosaic.Lib.StableHlo.Run

set_option maxRecDepth 16384

noncomputable section

namespace Cert.KernelIdeal.KHost

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg) (c : Dev nD)

/-! ## Arrays a stretch of host operations leaves alone

Every host operation writes exactly one array, its result.  An array that is the result of no operation of a stretch
holds after the stretch what it held before it. -/

/-- The results of the operations before the first matrix product: the edge lists with the self loops appended, the
    degrees, their inverse square roots, the edge normalisation, and every intermediate value. -/
def written0 : List (Ref sig .tc) := [
    main_v0, main_v1, main_v2, main_v3, main_v4, main_v5, main_v6, main_cst,
    main_v7, main_v8, main_cst_0, main_v9, main_v10, main_v11, main_cst_1, main_v12,
    main_v13, main_v14, main_cst_2, main_call0_v0, main_call0_v1, main_v15, main_c, main_v16,
    main_v17, main_c_3, main_v18, main_v19, main_v20, main_v21, main_v22, main_v23,
    main_c_4, main_v24, main_v25, main_c_5, main_v26, main_v27, main_v28, main_v29,
    main_v30, main_v31 ]
/-- The results of the operations between the first and the second matrix product (one aggregation and max(·, 0)). -/
def written1 : List (Ref sig .tc) := [
    main_v33, main_c_6, main_v34, main_v35, main_c_7, main_v36, main_v37, main_v38,
    main_v39, main_v40, main_v41, main_v42, main_cst_8, main_v43, main_v44, main_v45,
    main_v46, main_v47, main_v48, main_call1_cst, main_call1_v0, main_v49 ]
/-- The results of the operations between the second and the third matrix product. -/
def written2 : List (Ref sig .tc) := [
    main_v51, main_c_9, main_v52, main_v53, main_c_10, main_v54, main_v55, main_v56,
    main_v57, main_v58, main_v59, main_v60, main_cst_11, main_v61, main_v62, main_v63,
    main_v64, main_v65, main_v66, main_call2_cst, main_call2_v0, main_v67 ]
/-- The results of the operations between the third matrix product and the perceptron (the last aggregation, the
    group means, the three bias rows). -/
def written3 : List (Ref sig .tc) := [
    main_v69, main_c_12, main_v70, main_v71, main_c_13, main_v72, main_v73, main_v74,
    main_v75, main_v76, main_v77, main_v78, main_cst_14, main_v79, main_v80, main_v81,
    main_v82, main_v83, main_v84, main_cst_15, main_v85, main_v86, main_v87, main_cst_16,
    main_v88, main_cst_17, main_v89, main_v90, main_v91, main_cst_18, main_v92, main_v93,
    main_v94, main_v95, main_v96, main_v97, main_v98, main_v99 ]

theorem single_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- Every operation of a literal line writes inside the given list of references. -/
macro "writes_in" : tactic =>
  `(tactic| (simp only [List.Forall, StableHlo.nullary_writes, StableHlo.unary_writes, StableHlo.binary_writes,
               StableHlo.ternary_writes, StableHlo.reshape_writes]
             repeat' apply And.intro
             all_goals exact single_sub_of_mem (by decide)))

theorem hostOps0_in : (hostOps0 : List (HloOp τ sig (Elt F))).Forall fun op => op.writes ⊆ (written0.map (Proc.devRef (τ := τ) .tc)).toFinset := by writes_in
theorem hostOps0_1_in : (hostOps0_1 : List (HloOp τ sig (Elt F))).Forall fun op => op.writes ⊆ (written0.map (Proc.devRef (τ := τ) .tc)).toFinset := by writes_in
theorem hostOps0_2_in : (hostOps0_2 : List (HloOp τ sig (Elt F))).Forall fun op => op.writes ⊆ (written0.map (Proc.devRef (τ := τ) .tc)).toFinset := by writes_in
theorem hostOps1_in : (hostOps1 : List (HloOp τ sig (Elt F))).Forall fun op => op.writes ⊆ (written1.map (Proc.devRef (τ := τ) .tc)).toFinset := by writes_in
theorem hostOps1_1_in : (hostOps1_1 : List (HloOp τ sig (Elt F))).Forall fun op => op.writes ⊆ (written1.map (Proc.devRef (τ := τ) .tc)).toFinset := by writes_in
theorem hostOps2_in : (hostOps2 : List (HloOp τ sig (Elt F))).Forall fun op => op.writes ⊆ (written2.map (Proc.devRef (τ := τ) .tc)).toFinset := by writes_in
theorem hostOps2_1_in : (hostOps2_1 : List (HloOp τ sig (Elt F))).Forall fun op => op.writes ⊆ (written2.map (Proc.devRef (τ := τ) .tc)).toFinset := by writes_in
theorem hostOps3_in : (hostOps3 : List (HloOp τ sig (Elt F))).Forall fun op => op.writes ⊆ (written3.map (Proc.devRef (τ := τ) .tc)).toFinset := by writes_in

/-- Through the operations before the first matrix product. -/
theorem W3_keep (b : Ref sig .tc) (hb : b ∉ written0) :
    W3 m ρ c (Proc.devRef .tc b) = m ((c : Thread nD τ).loc b) :=
  ((StableHlo.after_of_writes_sub hostOps0_2 _ hostOps0_2_in hb).trans
    ((StableHlo.after_of_writes_sub hostOps0_1 _ hostOps0_1_in hb).trans
      (StableHlo.after_of_writes_sub hostOps0 _ hostOps0_in hb)))
/-- Through the operations between the first and the second matrix product. -/
theorem W6_keep (b : Ref sig .tc) (hb : b ∉ written1) :
    W6 m ρ c (Proc.devRef .tc b) = W4 m ρ c (Proc.devRef .tc b) :=
  (StableHlo.after_of_writes_sub hostOps1_1 _ hostOps1_1_in hb).trans
    (StableHlo.after_of_writes_sub hostOps1 _ hostOps1_in hb)
/-- Through the operations between the second and the third matrix product. -/
theorem W9_keep (b : Ref sig .tc) (hb : b ∉ written2) :
    W9 m ρ c (Proc.devRef .tc b) = W7 m ρ c (Proc.devRef .tc b) :=
  (StableHlo.after_of_writes_sub hostOps2_1 _ hostOps2_1_in hb).trans
    (StableHlo.after_of_writes_sub hostOps2 _ hostOps2_in hb)
/-- Through the operations between the third matrix product and the perceptron. -/
theorem W11_keep (b : Ref sig .tc) (hb : b ∉ written3) :
    W11 m ρ c (Proc.devRef .tc b) = W10 m ρ c (Proc.devRef .tc b) :=
  StableHlo.after_of_writes_sub hostOps3 _ hostOps3_in hb

/-! ## The first product's operands are argument arrays -/

theorem V3_arg0 : V3 m ρ c main_arg0 = m ((c : Thread nD τ).loc main_arg0) := W3_keep m ρ c main_arg0 (by decide)
theorem V3_arg4 : V3 m ρ c main_arg4 = m ((c : Thread nD τ).loc main_arg4) := W3_keep m ρ c main_arg4 (by decide)

/-! ## Before the first matrix product: the edge lists and the edge normalisation -/

theorem W3_v5 : W3 m ρ c (Proc.devRef .tc main_v5) = Cert.Spec.srcIdx (m ((c : Thread nD τ).loc main_arg1)) := by
  show StableHlo.after hostOps0_2 (StableHlo.after hostOps0_1 (StableHlo.after hostOps0 (W0 m ρ c))) (Proc.devRef .tc main_v5) = _
  after_results
  rfl

theorem W3_v6 : W3 m ρ c (Proc.devRef .tc main_v6) = Cert.Spec.dstIdx (m ((c : Thread nD τ).loc main_arg1)) := by
  show StableHlo.after hostOps0_2 (StableHlo.after hostOps0_1 (StableHlo.after hostOps0 (W0 m ρ c))) (Proc.devRef .tc main_v6) = _
  after_results
  rfl

theorem W3_v31 : W3 m ρ c (Proc.devRef .tc main_v31)
    = Cert.Spec.norm (m ((c : Thread nD τ).loc main_arg1)) (m ((c : Thread nD τ).loc main_arg2)) := by
  show StableHlo.after hostOps0_2 (StableHlo.after hostOps0_1 (StableHlo.after hostOps0 (W0 m ρ c))) (Proc.devRef .tc main_v31) = _
  after_results_simp
  rfl

/-! ## Through a matrix-product region: an array that is none of the region's arrays is as the region found it -/

theorem W4_keep (b : Ref sig .tc) (hb : b ∉ written0) (hr : ∀ w, Pipeline.arrRef spec0 w ≠ b) :
    W4 m ρ c (Proc.devRef .tc b) = m ((c : Thread nD τ).loc b) :=
  (W4_of_ne m ρ c b hr).trans (W3_keep m ρ c b hb)
theorem W7_keep (b : Ref sig .tc) (hb : b ∉ written1) (hr : ∀ w, Pipeline.arrRef spec1 w ≠ b) :
    W7 m ρ c (Proc.devRef .tc b) = W4 m ρ c (Proc.devRef .tc b) :=
  (W7_of_ne m ρ c b hr).trans (W6_keep m ρ c b hb)
theorem W10_keep (b : Ref sig .tc) (hb : b ∉ written2) (hr : ∀ w, Pipeline.arrRef spec2 w ≠ b) :
    W10 m ρ c (Proc.devRef .tc b) = W7 m ρ c (Proc.devRef .tc b) :=
  (W10_of_ne m ρ c b hr).trans (W9_keep m ρ c b hb)

/-- An argument array that no region writes: at the exit of the first region it is as launched. -/
macro "arg_at4" : term => `(W4_keep _ _ _ _ (by decide) (by decide))
/-- … at the exit of the second region. -/
macro "arg_at7" : term => `((W7_keep _ _ _ _ (by decide) (by decide)).trans (W4_keep _ _ _ _ (by decide) (by decide)))
/-- … at the exit of the third region. -/
macro "arg_at10" : term =>
  `((W10_keep _ _ _ _ (by decide) (by decide)).trans
      ((W7_keep _ _ _ _ (by decide) (by decide)).trans (W4_keep _ _ _ _ (by decide) (by decide))))

/-! The edge lists and the normalisation at the exit of each matrix-product region. -/

theorem W4_v5 : W4 m ρ c (Proc.devRef .tc main_v5) = Cert.Spec.srcIdx (m ((c : Thread nD τ).loc main_arg1)) :=
  (W4_of_ne m ρ c main_v5 (by decide)).trans (W3_v5 m ρ c)
theorem W4_v6 : W4 m ρ c (Proc.devRef .tc main_v6) = Cert.Spec.dstIdx (m ((c : Thread nD τ).loc main_arg1)) :=
  (W4_of_ne m ρ c main_v6 (by decide)).trans (W3_v6 m ρ c)
theorem W4_v31 : W4 m ρ c (Proc.devRef .tc main_v31)
    = Cert.Spec.norm (m ((c : Thread nD τ).loc main_arg1)) (m ((c : Thread nD τ).loc main_arg2)) :=
  (W4_of_ne m ρ c main_v31 (by decide)).trans (W3_v31 m ρ c)
theorem W7_v5 : W7 m ρ c (Proc.devRef .tc main_v5) = Cert.Spec.srcIdx (m ((c : Thread nD τ).loc main_arg1)) :=
  (W7_keep m ρ c main_v5 (by decide) (by decide)).trans (W4_v5 m ρ c)
theorem W7_v6 : W7 m ρ c (Proc.devRef .tc main_v6) = Cert.Spec.dstIdx (m ((c : Thread nD τ).loc main_arg1)) :=
  (W7_keep m ρ c main_v6 (by decide) (by decide)).trans (W4_v6 m ρ c)
theorem W7_v31 : W7 m ρ c (Proc.devRef .tc main_v31)
    = Cert.Spec.norm (m ((c : Thread nD τ).loc main_arg1)) (m ((c : Thread nD τ).loc main_arg2)) :=
  (W7_keep m ρ c main_v31 (by decide) (by decide)).trans (W4_v31 m ρ c)
theorem W10_v5 : W10 m ρ c (Proc.devRef .tc main_v5) = Cert.Spec.srcIdx (m ((c : Thread nD τ).loc main_arg1)) :=
  (W10_keep m ρ c main_v5 (by decide) (by decide)).trans (W7_v5 m ρ c)
theorem W10_v6 : W10 m ρ c (Proc.devRef .tc main_v6) = Cert.Spec.dstIdx (m ((c : Thread nD τ).loc main_arg1)) :=
  (W10_keep m ρ c main_v6 (by decide) (by decide)).trans (W7_v6 m ρ c)
theorem W10_v31 : W10 m ρ c (Proc.devRef .tc main_v31)
    = Cert.Spec.norm (m ((c : Thread nD τ).loc main_arg1)) (m ((c : Thread nD τ).loc main_arg2)) :=
  (W10_keep m ρ c main_v31 (by decide) (by decide)).trans (W7_v31 m ρ c)

/-! ## Between the matrix products: one aggregation, then max(·, 0) -/

theorem V6_v49 : V6 m ρ c main_v49
    = Cert.Spec.relu (Cert.Spec.layer (W4 m ρ c (Proc.devRef .tc main_v32)) (m ((c : Thread nD τ).loc main_arg1))
        (m ((c : Thread nD τ).loc main_arg2)) (m ((c : Thread nD τ).loc main_arg5))) := by
  show StableHlo.after hostOps1_1 (StableHlo.after hostOps1 (W4 m ρ c)) (Proc.devRef .tc main_v49) = _
  after_results_simp
  rw [W4_v31, W4_v5, W4_v6, (arg_at4 : W4 m ρ c (Proc.devRef .tc main_arg5) = _)]
  rfl

theorem V6_arg6 : V6 m ρ c main_arg6 = m ((c : Thread nD τ).loc main_arg6) :=
  (W6_keep m ρ c main_arg6 (by decide)).trans arg_at4

theorem V9_v67 : V9 m ρ c main_v67
    = Cert.Spec.relu (Cert.Spec.layer (W7 m ρ c (Proc.devRef .tc main_v50)) (m ((c : Thread nD τ).loc main_arg1))
        (m ((c : Thread nD τ).loc main_arg2)) (m ((c : Thread nD τ).loc main_arg7))) := by
  show StableHlo.after hostOps2_1 (StableHlo.after hostOps2 (W7 m ρ c)) (Proc.devRef .tc main_v67) = _
  after_results_simp
  rw [W7_v31, W7_v5, W7_v6, (arg_at7 : W7 m ρ c (Proc.devRef .tc main_arg7) = _)]
  rfl

theorem V9_arg8 : V9 m ρ c main_arg8 = m ((c : Thread nD τ).loc main_arg8) :=
  (W9_keep m ρ c main_arg8 (by decide)).trans arg_at7

/-! ## Before the perceptron: the last aggregation, the group means, the bias vectors as one-row matrices -/

theorem V11_v96 : V11 m ρ c main_v96
    = Cert.Spec.pool (Cert.Spec.layer (W10 m ρ c (Proc.devRef .tc main_v68)) (m ((c : Thread nD τ).loc main_arg1))
        (m ((c : Thread nD τ).loc main_arg2)) (m ((c : Thread nD τ).loc main_arg9))) (m ((c : Thread nD τ).loc main_arg3)) := by
  show StableHlo.after hostOps3 (W10 m ρ c) (Proc.devRef .tc main_v96) = _
  after_results_simp
  rw [W10_v31, W10_v5, W10_v6, (arg_at10 : W10 m ρ c (Proc.devRef .tc main_arg9) = _),
    (arg_at10 : W10 m ρ c (Proc.devRef .tc main_arg3) = _)]
  rfl

theorem V11_v97 : V11 m ρ c main_v97 = shapeCast S1x64 (m ((c : Thread nD τ).loc main_arg11)) shapeCasts_S64_S1x64 := by
  show StableHlo.after hostOps3 (W10 m ρ c) (Proc.devRef .tc main_v97) = _
  after_results_simp
  rw [(arg_at10 : W10 m ρ c (Proc.devRef .tc main_arg11) = _)]
  rfl
theorem V11_v98 : V11 m ρ c main_v98 = shapeCast S1x64 (m ((c : Thread nD τ).loc main_arg13)) shapeCasts_S64_S1x64 := by
  show StableHlo.after hostOps3 (W10 m ρ c) (Proc.devRef .tc main_v98) = _
  after_results_simp
  rw [(arg_at10 : W10 m ρ c (Proc.devRef .tc main_arg13) = _)]
  rfl
theorem V11_v99 : V11 m ρ c main_v99 = shapeCast S1x10 (m ((c : Thread nD τ).loc main_arg15)) shapeCasts_S10_S1x10 := by
  show StableHlo.after hostOps3 (W10 m ρ c) (Proc.devRef .tc main_v99) = _
  after_results_simp
  rw [(arg_at10 : W10 m ρ c (Proc.devRef .tc main_arg15) = _)]
  rfl

theorem V11_arg10 : V11 m ρ c main_arg10 = m ((c : Thread nD τ).loc main_arg10) :=
  (W11_keep m ρ c main_arg10 (by decide)).trans arg_at10
theorem V11_arg12 : V11 m ρ c main_arg12 = m ((c : Thread nD τ).loc main_arg12) :=
  (W11_keep m ρ c main_arg12 (by decide)).trans arg_at10
theorem V11_arg14 : V11 m ρ c main_arg14 = m ((c : Thread nD τ).loc main_arg14) :=
  (W11_keep m ρ c main_arg14 (by decide)).trans arg_at10

end Cert.KernelIdeal.KHost

end
-- ==== Proof.RefLayers.lean ====
/-
  The reference program's stages are the specification's stages.

  Each graph-convolution layer of the reference is, operation for operation, the aggregation
  n ↦ Σ_{e : c e = n} norm e · h (r e) + bias of the specification applied to the layer's linear image h, followed
  (in the first two layers) by max(·, 0); the last layer is followed by the mean over the groups.  The two sides are
  the same composition of the same scatter / gather / select / broadcast operations on the same index arrays, so
  each of these equalities holds by unfolding the names.  The linear images are plain matrix products
  [N, K] · [K, 32], read entry by entry on the extended reals as Σ_k X[p, k] · W[k, q].
-/
import proofs.«175702_j23957327577458_1_alg».proof.Proof.Gen.ReferenceIdeal.Read
import proofs.«175702_j23957327577458_1_alg».proof.Proof.Spec
import proofs.«175702_j23957327577458_1_alg».proof.Proof.LibPlainDot

noncomputable section

namespace Cert.ReferenceIdeal.RefLayers

open Cert.ReferenceIdeal Cert.ReferenceIdeal.Gen Idealize.ShloMosaic Idealize.ShloMosaic.ValueIdx

variable {F : FTy → Type} [FloatOps F]

/-! ## The aggregation stages (any float model) -/

/-- Layer 1 of the reference: max(·, 0) of the aggregation of the first linear image. -/
theorem ref_layer1 (x0 : (⟨S100000x128, .f32⟩ : BufTy).Contents (Elt F)) (x1 : (⟨S2x3200000, .i32⟩ : BufTy).Contents (Elt F)) (x2 : (⟨S3200000, .f32⟩ : BufTy).Contents (Elt F)) (x4 : (⟨S128x32, .f32⟩ : BufTy).Contents (Elt F)) (x5 : (⟨S32, .f32⟩ : BufTy).Contents (Elt F)) :
    Read.val_main_v49 (F := F) x0 x1 x2 x4 x5
      = Cert.Spec.relu (Cert.Spec.layer (Read.val_main_v4 (F := F) x0 x4) x1 x2 x5) := rfl

/-- Layer 2 of the reference: max(·, 0) of the aggregation of the second linear image. -/
theorem ref_layer2 (x0 : (⟨S100000x128, .f32⟩ : BufTy).Contents (Elt F)) (x1 : (⟨S2x3200000, .i32⟩ : BufTy).Contents (Elt F)) (x2 : (⟨S3200000, .f32⟩ : BufTy).Contents (Elt F)) (x4 : (⟨S128x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) :
    Read.val_main_v95 (F := F) x0 x1 x2 x4 x5 x6 x7
      = Cert.Spec.relu (Cert.Spec.layer (Read.val_main_v50 (F := F) x0 x1 x2 x4 x5 x6) x1 x2 x7) := rfl

/-- Layer 3 of the reference (no max) followed by the mean over the groups. -/
theorem ref_layer3_pool (x0 : (⟨S100000x128, .f32⟩ : BufTy).Contents (Elt F)) (x1 : (⟨S2x3200000, .i32⟩ : BufTy).Contents (Elt F)) (x2 : (⟨S3200000, .f32⟩ : BufTy).Contents (Elt F)) (x3 : (⟨S100000, .i32⟩ : BufTy).Contents (Elt F)) (x4 : (⟨S128x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S32x32, .f32⟩ : BufTy).Contents (Elt F)) (x9 : (⟨S32, .f32⟩ : BufTy).Contents (Elt F)) :
    Read.val_main_v152 (F := F) x0 x1 x2 x3 x4 x5 x6 x7 x8 x9
      = Cert.Spec.pool (Cert.Spec.layer (Read.val_main_v96 (F := F) x0 x1 x2 x4 x5 x6 x7 x8) x1 x2 x9) x3 := rfl

/-! ## The linear images (extended reals) -/

/-- The first linear image X · W₁, entry by entry. -/
theorem ref_mm1 (x0 : (⟨S100000x128, .f32⟩ : BufTy).Contents (Elt Ideal)) (x4 : (⟨S128x32, .f32⟩ : BufTy).Contents (Elt Ideal)) :
    Read.val_main_v4 (F := Ideal) x0 x4 = Cert.Spec.mm (a := 100000) (K := 128) (b := 32) x0 x4 := by
  funext i
  obtain ⟨p, q, rfl⟩ : ∃ (p : Fin 100000) (q : Fin 32), i = ix2 p q := ⟨i 0, i 1, eq_ix2 i⟩
  unfold Read.val_main_v4 Cert.Spec.mm
  exact Cert.LibPlainDot.dotGeneral_apply dot_S100000x128_S128x32_S100000x32_1_0_0_1_n_n
    ⟨rfl, rfl, rfl, rfl, rfl, rfl⟩ none .single x0 x4 p q

/-- The second linear image h₁ · W₂, entry by entry. -/
theorem ref_mm2 (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x4 : (⟨S128x32, .f32⟩ : BufTy).Contents (Elt Ideal)) (x5 : (⟨S32, .f32⟩ : BufTy).Contents (Elt Ideal)) (x6 : (⟨S32x32, .f32⟩ : BufTy).Contents (Elt Ideal)) :
    Read.val_main_v50 (F := Ideal) x0 x1 x2 x4 x5 x6
      = Cert.Spec.mm (a := 100000) (K := 32) (b := 32) (Read.val_main_v49 (F := Ideal) x0 x1 x2 x4 x5) x6 := by
  funext i
  obtain ⟨p, q, rfl⟩ : ∃ (p : Fin 100000) (q : Fin 32), i = ix2 p q := ⟨i 0, i 1, eq_ix2 i⟩
  unfold Read.val_main_v50 Cert.Spec.mm
  exact Cert.LibPlainDot.dotGeneral_apply dot_S100000x32_S32x32_S100000x32_1_0_0_1_n_n
    ⟨rfl, rfl, rfl, rfl, rfl, rfl⟩ none .single (Read.val_main_v49 (F := Ideal) x0 x1 x2 x4 x5) x6 p q

/-- The third linear image h₂ · W₃, entry by entry. -/
theorem ref_mm3 (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x4 : (⟨S128x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) :
    Read.val_main_v96 (F := Ideal) x0 x1 x2 x4 x5 x6 x7 x8
      = Cert.Spec.mm (a := 100000) (K := 32) (b := 32) (Read.val_main_v95 (F := Ideal) x0 x1 x2 x4 x5 x6 x7) x8 := by
  funext i
  obtain ⟨p, q, rfl⟩ : ∃ (p : Fin 100000) (q : Fin 32), i = ix2 p q := ⟨i 0, i 1, eq_ix2 i⟩
  unfold Read.val_main_v96 Cert.Spec.mm
  exact Cert.LibPlainDot.dotGeneral_apply dot_S100000x32_S32x32_S100000x32_1_0_0_1_n_n
    ⟨rfl, rfl, rfl, rfl, rfl, rfl⟩ none .single (Read.val_main_v95 (F := Ideal) x0 x1 x2 x4 x5 x6 x7) x8 p q

end Cert.ReferenceIdeal.RefLayers

end
-- ==== Proof.Assemble.lean ====
/-
  The two programs compute one function.

  Kernel side: the result buffer ends at the last region's exit contents.  Reading back through the fold of segment
  boundaries, the last region leaves the perceptron of its seven operand arrays; those are what the last host stretch
  leaves (the pooled mean of the third aggregation, the bias vectors as rows, the weight arguments); the third
  aggregation is taken from the third matrix region's output, the product of the second layer's activation with W3;
  and so on down to the first region's product x · W1.  Reference side: the same stages in one host program, each
  matrix product one contraction.  Both are `Spec.net` of the sixteen arguments.
-/
import proofs.«175702_j23957327577458_1_alg».proof.Proof.Gen.KernelIdeal.Frame
import proofs.«175702_j23957327577458_1_alg».proof.Proof.Gen.ReferenceIdeal.Read
import proofs.«175702_j23957327577458_1_alg».proof.Proof.Spec
import proofs.«175702_j23957327577458_1_alg».proof.Proof.MatmulRegions
import proofs.«175702_j23957327577458_1_alg».proof.Proof.MlpRegion
import proofs.«175702_j23957327577458_1_alg».proof.Proof.KernelHost
import proofs.«175702_j23957327577458_1_alg».proof.Proof.RefLayers

noncomputable section

namespace Cert.Bridge

open Idealize.ShloMosaic Idealize.ShloMosaic.TcCoe Idealize.SL.Sem

section Kernel
open Cert.KernelIdeal Cert.KernelIdeal.Gen Cert.KernelIdeal.Regions Cert.KernelIdeal.KHost

variable (m : (ℓ : Loc nD τ sig) → Buf (Elt Ideal) ℓ) (ρ : Dev nD → PrngReg) (c : Dev nD)

/-- The first matrix region leaves x · W1. -/
theorem v32_eq : W4 m ρ c (Proc.devRef .tc main_v32)
    = Cert.Spec.mm (a := 100000) (K := 128) (b := 32) (m ((c.tc : Thread nD τ).loc main_arg0)) (m ((c.tc : Thread nD τ).loc main_arg4)) := by
  refine (W4_arr m ρ c 2).trans ?_
  rw [region0_value (V3 m ρ) c, V3_arg0, V3_arg4]

/-- The second matrix region leaves relu(layer 1) · W2. -/
theorem v50_eq : W7 m ρ c (Proc.devRef .tc main_v50)
    = Cert.Spec.mm (a := 100000) (K := 32) (b := 32)
        (Cert.Spec.relu (F := Ideal) (Cert.Spec.layer (F := Ideal) (Cert.Spec.mm (a := 100000) (K := 128) (b := 32) (m ((c.tc : Thread nD τ).loc main_arg0)) (m ((c.tc : Thread nD τ).loc main_arg4)))
          (m ((c.tc : Thread nD τ).loc main_arg1)) (m ((c.tc : Thread nD τ).loc main_arg2)) (m ((c.tc : Thread nD τ).loc main_arg5))))
        (m ((c.tc : Thread nD τ).loc main_arg6)) := by
  refine (W7_arr m ρ c 2).trans ?_
  rw [region1_value (V6 m ρ) c, V6_v49, V6_arg6, v32_eq]

/-- The third matrix region leaves relu(layer 2) · W3. -/
theorem v68_eq : W10 m ρ c (Proc.devRef .tc main_v68)
    = Cert.Spec.mm (a := 100000) (K := 32) (b := 32)
        (Cert.Spec.relu (F := Ideal) (Cert.Spec.layer (F := Ideal) (Cert.Spec.mm (a := 100000) (K := 32) (b := 32)
          (Cert.Spec.relu (F := Ideal) (Cert.Spec.layer (F := Ideal) (Cert.Spec.mm (a := 100000) (K := 128) (b := 32) (m ((c.tc : Thread nD τ).loc main_arg0)) (m ((c.tc : Thread nD τ).loc main_arg4)))
            (m ((c.tc : Thread nD τ).loc main_arg1)) (m ((c.tc : Thread nD τ).loc main_arg2)) (m ((c.tc : Thread nD τ).loc main_arg5))))
          (m ((c.tc : Thread nD τ).loc main_arg6)))
          (m ((c.tc : Thread nD τ).loc main_arg1)) (m ((c.tc : Thread nD τ).loc main_arg2)) (m ((c.tc : Thread nD τ).loc main_arg7))))
        (m ((c.tc : Thread nD τ).loc main_arg8)) := by
  refine (W10_arr m ρ c 2).trans ?_
  rw [region2_value (V9 m ρ) c, V9_v67, V9_arg8, v50_eq]

/-- The kernel's result is the network of its arguments. -/
theorem kernel_value : W12 m ρ c (Proc.devRef .tc main_v100)
    = Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  refine (W12_arr m ρ c 7).trans ?_
  rw [region3_value (V11 m ρ) c, V11_v96, V11_v97, V11_v98, V11_v99, V11_arg10, V11_arg12, V11_arg14, v68_eq,
    reshape_row64, reshape_row64, reshape_row10]
  rfl

end Kernel

section Reference
open Cert.ReferenceIdeal Cert.ReferenceIdeal.Gen Cert.ReferenceIdeal.RefLayers Cert.ReferenceIdeal.RefMlp

variable (m : (ℓ : Loc nD τ sig) → Buf (Elt Ideal) ℓ) (c : Dev nD)

/-- The reference's result is the network of its arguments. -/
theorem reference_value : Cert.ReferenceIdeal.Value.res_main_v166 m c
    = Cert.Spec.net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) := by
  rw [Cert.ReferenceIdeal.Read.val_main_v166_eq, ref_mlp, ref_layer3_pool, ref_mm3, ref_layer2, ref_mm2, ref_layer1, ref_mm1]
  rfl

end Reference

end Cert.Bridge

end
-- ==== Proof.lean ====
/-
  The certificate of a three-layer graph-convolution network with a mean pool and a perceptron head: the Pallas
  program (three row-tiled matrix products on the matrix unit, the edge aggregation on the host, the perceptron in one
  gridless kernel) against the plain jnp program.

  Frames: every run of either kernel program terminates without a fault and leaves its arguments as launched (the
  four regions' pipelines and the host stretches between them); the reference's run is a straight line of host
  operations.  Nothing was rewritten on the way to the idealized kernel, so there is nothing to preserve.  On the
  extended reals both programs return `Spec.net` of the arguments: the block-by-block products are the whole
  contractions entry by entry (a sum over the shared axis in either case, no finiteness needed), and every other stage
  is the same operation in both programs.
-/
import proofs.«175702_j23957327577458_1_alg».proof.Defs
import proofs.«175702_j23957327577458_1_alg».proof.Proof.Gen.Kernel
import proofs.«175702_j23957327577458_1_alg».proof.Proof.Gen.Kernel.Frame
import proofs.«175702_j23957327577458_1_alg».proof.Proof.Gen.KernelIdeal
import proofs.«175702_j23957327577458_1_alg».proof.Proof.Gen.KernelIdeal.Frame
import proofs.«175702_j23957327577458_1_alg».proof.Proof.Gen.ReferenceIdeal
import proofs.«175702_j23957327577458_1_alg».proof.Proof.Gen.Pre_finite_inputs
import proofs.«175702_j23957327577458_1_alg».proof.Proof.Gen.ReferenceIdeal.Run
import proofs.«175702_j23957327577458_1_alg».proof.Proof.Gen.ReferenceIdeal.Read
import proofs.«175702_j23957327577458_1_alg».proof.Proof.KernelRun
import proofs.«175702_j23957327577458_1_alg».proof.Proof.Assemble
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the extended reals: no rewrite to account for. -/
theorem preserves : Cert.preserves_Kernel_KernelIdeal := trivial

/-- From memories agreeing on the arguments both programs end at the network of those arguments. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun r h c => ⟨(h c).1.trans (Cert.Bridge.kernel_value m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.Bridge.reference_value m' c]
    simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
